-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2000 : Shape := ⟨2, ![8192, 2000]⟩
abbrev S2000x2000 : Shape := ⟨2, ![2000, 2000]⟩
abbrev S2000 : Shape := ⟨1, ![2000]⟩
abbrev S_ : Shape := ⟨0, ![]⟩

class Facts : Prop where
  bcast_S_S8192x2000 : S_.BroadcastsInDim S8192x2000 (![] : Fin 0 → Fin S8192x2000.rank)
  reducesTo_S8192x2000_S_d0_1 : S8192x2000.ReducesTo [0, 1] S_
  h_S_ : 0 < S_.numel
  bcast_S_S2000x2000 : S_.BroadcastsInDim S2000x2000 (![] : Fin 0 → Fin S2000x2000.rank)
  reducesTo_S2000x2000_S_d0_1 : S2000x2000.ReducesTo [0, 1] S_
  bcast_S_S2000 : S_.BroadcastsInDim S2000 (![] : Fin 0 → Fin S2000.rank)
  reducesTo_S2000_S_d0 : S2000.ReducesTo [0] S_

variable [Facts]

def fn_part2 {F : FTy → Type} [FloatOps F] (main_arg7 : FVec F S2000x2000 .f32) (main_arg8 : FVec F S2000 .f32) (main_v33 : IVec S_ 1) : IVec S_ 1 :=
  let main_v34 : FVec F S2000x2000 .f32 := Host.absf main_arg7
  let main_cst_12 : FVec F S_ .f32 := constant S_ .f32 0x7F800000#32
  let main_v35 : FVec F S2000x2000 .f32 := broadcastInDim S2000x2000 ![] bcast_S_S2000x2000 main_cst_12
  let main_v36 : IVec S2000x2000 1 := cmpf .olt main_v34 main_v35
  let main_c_13 : IVec S_ 1 := constantI S_ 1 1#1
  let main_v37 : IVec S_ 1 := (fun x v => Host.reduce IntOp.andi x v reducesTo_S2000x2000_S_d0_1 h_S_) main_v36 main_c_13
  let main_v38 : IVec S_ 1 := andi main_v33 main_v37
  let main_v39 : FVec F S2000 .f32 := Host.absf main_arg8
  let main_cst_14 : FVec F S_ .f32 := constant S_ .f32 0x7F800000#32
  let main_v40 : FVec F S2000 .f32 := broadcastInDim S2000 ![] bcast_S_S2000 main_cst_14
  let main_v41 : IVec S2000 1 := cmpf .olt main_v39 main_v40
  let main_c_15 : IVec S_ 1 := constantI S_ 1 1#1
  let main_v42 : IVec S_ 1 := (fun x v => Host.reduce IntOp.andi x v reducesTo_S2000_S_d0 h_S_) main_v41 main_c_15
  let main_v43 : IVec S_ 1 := andi main_v38 main_v42
  main_v43

def fn_part1 {F : FTy → Type} [FloatOps F] (main_arg4 : FVec F S2000 .f32) (main_arg5 : FVec F S2000x2000 .f32) (main_arg6 : FVec F S2000 .f32) (main_arg7 : FVec F S2000x2000 .f32) (main_arg8 : FVec F S2000 .f32) (main_v13 : IVec S_ 1) (main_v16 : IVec S2000x2000 1) : IVec S_ 1 :=
  let main_c_5 : IVec S_ 1 := constantI S_ 1 1#1
  let main_v17 : IVec S_ 1 := (fun x v => Host.reduce IntOp.andi x v reducesTo_S2000x2000_S_d0_1 h_S_) main_v16 main_c_5
  let main_v18 : IVec S_ 1 := andi main_v13 main_v17
  let main_v19 : FVec F S2000 .f32 := Host.absf main_arg4
  let main_cst_6 : FVec F S_ .f32 := constant S_ .f32 0x7F800000#32
  let main_v20 : FVec F S2000 .f32 := broadcastInDim S2000 ![] bcast_S_S2000 main_cst_6
  let main_v21 : IVec S2000 1 := cmpf .olt main_v19 main_v20
  let main_c_7 : IVec S_ 1 := constantI S_ 1 1#1
  let main_v22 : IVec S_ 1 := (fun x v => Host.reduce IntOp.andi x v reducesTo_S2000_S_d0 h_S_) main_v21 main_c_7
  let main_v23 : IVec S_ 1 := andi main_v18 main_v22
  let main_v24 : FVec F S2000x2000 .f32 := Host.absf main_arg5
  let main_cst_8 : FVec F S_ .f32 := constant S_ .f32 0x7F800000#32
  let main_v25 : FVec F S2000x2000 .f32 := broadcastInDim S2000x2000 ![] bcast_S_S2000x2000 main_cst_8
  let main_v26 : IVec S2000x2000 1 := cmpf .olt main_v24 main_v25
  let main_c_9 : IVec S_ 1 := constantI S_ 1 1#1
  let main_v27 : IVec S_ 1 := (fun x v => Host.reduce IntOp.andi x v reducesTo_S2000x2000_S_d0_1 h_S_) main_v26 main_c_9
  let main_v28 : IVec S_ 1 := andi main_v23 main_v27
  let main_v29 : FVec F S2000 .f32 := Host.absf main_arg6
  let main_cst_10 : FVec F S_ .f32 := constant S_ .f32 0x7F800000#32
  let main_v30 : FVec F S2000 .f32 := broadcastInDim S2000 ![] bcast_S_S2000 main_cst_10
  let main_v31 : IVec S2000 1 := cmpf .olt main_v29 main_v30
  let main_c_11 : IVec S_ 1 := constantI S_ 1 1#1
  let main_v32 : IVec S_ 1 := (fun x v => Host.reduce IntOp.andi x v reducesTo_S2000_S_d0 h_S_) main_v31 main_c_11
  let main_v33 : IVec S_ 1 := andi main_v28 main_v32
  fn_part2 (F := F) main_arg7 main_arg8 main_v33

def fn {F : FTy → Type} [FloatOps F] (main_arg0 : FVec F S8192x2000 .f32) (main_arg1 : FVec F S8192x2000 .f32) (main_arg2 : FVec F S8192x2000 .f32) (main_arg3 : FVec F S2000x2000 .f32) (main_arg4 : FVec F S2000 .f32) (main_arg5 : FVec F S2000x2000 .f32) (main_arg6 : FVec F S2000 .f32) (main_arg7 : FVec F S2000x2000 .f32) (main_arg8 : FVec F S2000 .f32) : IVec S_ 1 :=
  let main_v0 : FVec F S8192x2000 .f32 := Host.absf main_arg0
  let main_cst : FVec F S_ .f32 := constant S_ .f32 0x7F800000#32
  let main_v1 : FVec F S8192x2000 .f32 := broadcastInDim S8192x2000 ![] bcast_S_S8192x2000 main_cst
  let main_v2 : IVec S8192x2000 1 := cmpf .olt main_v0 main_v1
  let main_c : IVec S_ 1 := constantI S_ 1 1#1
  let main_v3 : IVec S_ 1 := (fun x v => Host.reduce IntOp.andi x v reducesTo_S8192x2000_S_d0_1 h_S_) main_v2 main_c
  let main_v4 : FVec F S8192x2000 .f32 := Host.absf main_arg1
  let main_cst_0 : FVec F S_ .f32 := constant S_ .f32 0x7F800000#32
  let main_v5 : FVec F S8192x2000 .f32 := broadcastInDim S8192x2000 ![] bcast_S_S8192x2000 main_cst_0
  let main_v6 : IVec S8192x2000 1 := cmpf .olt main_v4 main_v5
  let main_c_1 : IVec S_ 1 := constantI S_ 1 1#1
  let main_v7 : IVec S_ 1 := (fun x v => Host.reduce IntOp.andi x v reducesTo_S8192x2000_S_d0_1 h_S_) main_v6 main_c_1
  let main_v8 : IVec S_ 1 := andi main_v3 main_v7
  let main_v9 : FVec F S8192x2000 .f32 := Host.absf main_arg2
  let main_cst_2 : FVec F S_ .f32 := constant S_ .f32 0x7F800000#32
  let main_v10 : FVec F S8192x2000 .f32 := broadcastInDim S8192x2000 ![] bcast_S_S8192x2000 main_cst_2
  let main_v11 : IVec S8192x2000 1 := cmpf .olt main_v9 main_v10
  let main_c_3 : IVec S_ 1 := constantI S_ 1 1#1
  let main_v12 : IVec S_ 1 := (fun x v => Host.reduce IntOp.andi x v reducesTo_S8192x2000_S_d0_1 h_S_) main_v11 main_c_3
  let main_v13 : IVec S_ 1 := andi main_v8 main_v12
  let main_v14 : FVec F S2000x2000 .f32 := Host.absf main_arg3
  let main_cst_4 : FVec F S_ .f32 := constant S_ .f32 0x7F800000#32
  let main_v15 : FVec F S2000x2000 .f32 := broadcastInDim S2000x2000 ![] bcast_S_S2000x2000 main_cst_4
  let main_v16 : IVec S2000x2000 1 := cmpf .olt main_v14 main_v15
  fn_part1 (F := F) main_arg4 main_arg5 main_arg6 main_arg7 main_arg8 main_v13 main_v16
-- ==== Kernel.lean ====
abbrev S8192x2000 : Shape := ⟨2, ![8192, 2000]⟩
abbrev S2000x2000 : Shape := ⟨2, ![2000, 2000]⟩
abbrev S2000 : Shape := ⟨1, ![2000]⟩
abbrev S1x2000 : Shape := ⟨2, ![1, 2000]⟩
abbrev S128x2000 : Shape := ⟨2, ![128, 2000]⟩
abbrev S128 : Shape := ⟨1, ![128]⟩
abbrev S128x1 : Shape := ⟨2, ![128, 1]⟩

abbrev nBuf : Space → Nat
  | .hbm => 19
  | .vmem => 12
  | .smem => 0
  | _ => 0

abbrev bufTy : (tb : Table) → Fin (tcTables nBuf tb) → BufTy
  | .hbm, ⟨0, _⟩ => ⟨S8192x2000, .f32⟩
  | .hbm, ⟨1, _⟩ => ⟨S8192x2000, .f32⟩
  | .hbm, ⟨2, _⟩ => ⟨S8192x2000, .f32⟩
  | .hbm, ⟨3, _⟩ => ⟨S2000x2000, .f32⟩
  | .hbm, ⟨4, _⟩ => ⟨S2000, .f32⟩
  | .hbm, ⟨5, _⟩ => ⟨S2000x2000, .f32⟩
  | .hbm, ⟨6, _⟩ => ⟨S2000, .f32⟩
  | .hbm, ⟨7, _⟩ => ⟨S2000x2000, .f32⟩
  | .hbm, ⟨8, _⟩ => ⟨S2000, .f32⟩
  | .hbm, ⟨9, _⟩ => ⟨S2000x2000, .f32⟩
  | .hbm, ⟨10, _⟩ => ⟨S2000x2000, .bf16⟩
  | .hbm, ⟨11, _⟩ => ⟨S2000x2000, .f32⟩
  | .hbm, ⟨12, _⟩ => ⟨S2000x2000, .bf16⟩
  | .hbm, ⟨13, _⟩ => ⟨S2000x2000, .f32⟩
  | .hbm, ⟨14, _⟩ => ⟨S2000x2000, .bf16⟩
  | .hbm, ⟨15, _⟩ => ⟨S2000, .f32⟩
  | .hbm, ⟨16, _⟩ => ⟨S2000, .f32⟩
  | .hbm, ⟨17, _⟩ => ⟨S1x2000, .f32⟩
  | .hbm, ⟨18, _⟩ => ⟨S8192x2000, .f32⟩
  | .local _ .vmem, ⟨0, _⟩ => ⟨S128x2000, .f32⟩
  | .local _ .vmem, ⟨1, _⟩ => ⟨S128x2000, .f32⟩
  | .local _ .vmem, ⟨2, _⟩ => ⟨S128x2000, .f32⟩
  | .local _ .vmem, ⟨3, _⟩ => ⟨S128x2000, .f32⟩
  | .local _ .vmem, ⟨4, _⟩ => ⟨S128x2000, .f32⟩
  | .local _ .vmem, ⟨5, _⟩ => ⟨S128x2000, .f32⟩
  | .local _ .vmem, ⟨6, _⟩ => ⟨S2000x2000, .bf16⟩
  | .local _ .vmem, ⟨7, _⟩ => ⟨S2000x2000, .bf16⟩
  | .local _ .vmem, ⟨8, _⟩ => ⟨S2000x2000, .bf16⟩
  | .local _ .vmem, ⟨9, _⟩ => ⟨S1x2000, .f32⟩
  | .local _ .vmem, ⟨10, _⟩ => ⟨S128x2000, .f32⟩
  | .local _ .vmem, ⟨11, _⟩ => ⟨S128x2000, .f32⟩
  | _, _ => ⟨S8192x2000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2000x2000 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2000x2000 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2000x2000 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2000 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x2000 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S2000x2000_S2000x2000_1_0 : S2000x2000.Transposes [1, 0] S2000x2000
  bitsLt_bf16_f32 : FTy.bits .bf16 < FTy.bits .f32
  shapeCasts_S2000_S1x2000 : S2000.ShapeCasts S1x2000
  inb_S128x2000_S128x2000_0_0 : ∀ a, (![0, 0] : Fin 2 → Nat) a + S128x2000.size a ≤ S128x2000.size a
  h_S128x2000 : 0 < S128x2000.numel
  reduces_S128x2000_S128 : S128x2000.Reduces [1] S128
  shapeCasts_S128_S128x1 : S128.ShapeCasts S128x1
  broadcasts_S128x1_S128x2000 : S128x1.Broadcasts S128x2000
  inb_S2000x2000_S2000x2000_0_0 : ∀ a, (![0, 0] : Fin 2 → Nat) a + S2000x2000.size a ≤ S2000x2000.size a
  h_S2000x2000 : 0 < S2000x2000.numel
  shapeCasts_S2000x2000_S2000x2000 : S2000x2000.ShapeCasts S2000x2000
  inb_S1x2000_S1x2000_0_0 : ∀ a, (![0, 0] : Fin 2 → Nat) a + S1x2000.size a ≤ S1x2000.size a
  h_S1x2000 : 0 < S1x2000.numel
  shapeCasts_S1x2000_S1x2000 : S1x2000.ShapeCasts S1x2000
  broadcasts_S1x2000_S128x2000 : S1x2000.Broadcasts S128x2000
  dot_S128x2000_S2000x2000_S128x2000_1_0_0_1_n_n_wf : DotDims.WF S128x2000 S2000x2000 S128x2000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2000.size a ≤ S8192x2000.size a
  hwx0_0 : ∀ i : grid0.Coords, EltTy.bits .f32 = 32 ∨ (Rect.block (s := S8192x2000) S128x2000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2000.size a ≤ S8192x2000.size a
  hwx0_1 : ∀ i : grid0.Coords, EltTy.bits .f32 = 32 ∨ (Rect.block (s := S8192x2000) S128x2000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2000.size a ≤ S8192x2000.size a
  hwx0_2 : ∀ i : grid0.Coords, EltTy.bits .f32 = 32 ∨ (Rect.block (s := S8192x2000) S128x2000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2000x2000.size a ≤ S2000x2000.size a
  hwx0_3 : ∀ i : grid0.Coords, EltTy.bits .bf16 = 32 ∨ (Rect.block (s := S2000x2000) S2000x2000.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2000x2000.size a ≤ S2000x2000.size a
  hwx0_4 : ∀ i : grid0.Coords, EltTy.bits .bf16 = 32 ∨ (Rect.block (s := S2000x2000) S2000x2000.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2000x2000.size a ≤ S2000x2000.size a
  hwx0_5 : ∀ i : grid0.Coords, EltTy.bits .bf16 = 32 ∨ (Rect.block (s := S2000x2000) S2000x2000.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2000.size a ≤ S1x2000.size a
  hwx0_6 : ∀ i : grid0.Coords, EltTy.bits .f32 = 32 ∨ (Rect.block (s := S1x2000) S1x2000.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x2000.size a ≤ S8192x2000.size a
  hwx0_7 : ∀ i : grid0.Coords, EltTy.bits .f32 = 32 ∨ (Rect.block (s := S8192x2000) S128x2000.size (cc0_transform_7 i) (hinb0_7 i)).WholeWords (EltTy.packing .f32)

variable [Facts₀]

def dot_S128x2000_S2000x2000_S128x2000_1_0_0_1_n_n : DotDims S128x2000 S2000x2000 S128x2000 where
  lhsContracting := [1]
  rhsContracting := [0]
  lhsNonContracting := [0]
  rhsNonContracting := [1]
  lhsBatch := []
  rhsBatch := []
  wf := dot_S128x2000_S2000x2000_S128x2000_1_0_0_1_n_n_wf

abbrev win0_0 : Pipeline.Window sig grid0 :=
  Pipeline.Window.ofSpec (Memref.whole main_arg0) S128x2000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x2000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x2000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x2000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S2000x2000.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S2000x2000.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x2000.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S128x2000.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x2000 : Shape := ⟨2, ![8192, 2000]⟩
abbrev S2000x2000 : Shape := ⟨2, ![2000, 2000]⟩
abbrev S2000 : Shape := ⟨1, ![2000]⟩
abbrev S_ : Shape := ⟨0, ![]⟩
abbrev S8192 : Shape := ⟨1, ![8192]⟩
abbrev S8192x1 : Shape := ⟨2, ![8192, 1]⟩
abbrev S1x2000 : Shape := ⟨2, ![1, 2000]⟩

abbrev nBuf : Space → Nat
  | .hbm => 147
  | .vmem => 0
  | .smem => 0
  | _ => 0

abbrev hbmTy0_0 (i : Nat) : BufTy := match i % 128 with
  | 0 => ⟨S8192x2000, .f32⟩
  | 1 => ⟨S8192x2000, .f32⟩
  | 2 => ⟨S8192x2000, .f32⟩
  | 3 => ⟨S2000x2000, .f32⟩
  | 4 => ⟨S2000, .f32⟩
  | 5 => ⟨S2000x2000, .f32⟩
  | 6 => ⟨S2000, .f32⟩
  | 7 => ⟨S2000x2000, .f32⟩
  | 8 => ⟨S2000, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .i32⟩
  | 16 => ⟨S_, .f32⟩
  | 17 => ⟨S8192, .f32⟩
  | 18 => ⟨S8192x1, .f32⟩
  | 19 => ⟨S_, .f32⟩
  | 20 => ⟨S8192x1, .f32⟩
  | 21 => ⟨S8192x1, .f32⟩
  | 22 => ⟨S8192x2000, .f32⟩
  | 23 => ⟨S8192x2000, .f32⟩
  | 24 => ⟨S8192x2000, .f32⟩
  | 25 => ⟨S_, .f32⟩
  | 26 => ⟨S_, .f32⟩
  | 27 => ⟨S_, .f32⟩
  | 28 => ⟨S_, .f32⟩
  | 29 => ⟨S8192, .f32⟩
  | 30 => ⟨S8192x1, .f32⟩
  | 31 => ⟨S8192x1, .f32⟩
  | 32 => ⟨S8192x1, .f32⟩
  | 33 => ⟨S_, .f32⟩
  | 34 => ⟨S_, .i1⟩
  | 35 => ⟨S_, .f32⟩
  | 36 => ⟨S_, .f32⟩
  | 37 => ⟨S8192x1, .f32⟩
  | 38 => ⟨S8192x1, .f32⟩
  | 39 => ⟨S8192x1, .f32⟩
  | 40 => ⟨S8192x2000, .f32⟩
  | 41 => ⟨S8192x2000, .f32⟩
  | 42 => ⟨S_, .f32⟩
  | 43 => ⟨S8192x1, .f32⟩
  | 44 => ⟨S8192x1, .f32⟩
  | 45 => ⟨S8192x2000, .f32⟩
  | 46 => ⟨S8192x2000, .f32⟩
  | 47 => ⟨S_, .f32⟩
  | 48 => ⟨S8192, .f32⟩
  | 49 => ⟨S8192x1, .f32⟩
  | 50 => ⟨S_, .f32⟩
  | 51 => ⟨S8192x1, .f32⟩
  | 52 => ⟨S8192x1, .f32⟩
  | 53 => ⟨S_, .i32⟩
  | 54 => ⟨S_, .f32⟩
  | 55 => ⟨S8192, .f32⟩
  | 56 => ⟨S8192x1, .f32⟩
  | 57 => ⟨S_, .f32⟩
  | 58 => ⟨S8192x1, .f32⟩
  | 59 => ⟨S8192x1, .f32⟩
  | 60 => ⟨S8192x2000, .f32⟩
  | 61 => ⟨S8192x2000, .f32⟩
  | 62 => ⟨S8192x2000, .f32⟩
  | 63 => ⟨S_, .f32⟩
  | 64 => ⟨S_, .f32⟩
  | 65 => ⟨S_, .f32⟩
  | 66 => ⟨S_, .f32⟩
  | 67 => ⟨S8192, .f32⟩
  | 68 => ⟨S8192x1, .f32⟩
  | 69 => ⟨S8192x1, .f32⟩
  | 70 => ⟨S8192x1, .f32⟩
  | 71 => ⟨S_, .f32⟩
  | 72 => ⟨S_, .i1⟩
  | 73 => ⟨S_, .f32⟩
  | 74 => ⟨S_, .f32⟩
  | 75 => ⟨S8192x1, .f32⟩
  | 76 => ⟨S8192x1, .f32⟩
  | 77 => ⟨S8192x1, .f32⟩
  | 78 => ⟨S8192x2000, .f32⟩
  | 79 => ⟨S8192x2000, .f32⟩
  | 80 => ⟨S_, .f32⟩
  | 81 => ⟨S8192x1, .f32⟩
  | 82 => ⟨S8192x1, .f32⟩
  | 83 => ⟨S8192x2000, .f32⟩
  | 84 => ⟨S8192x2000, .f32⟩
  | 85 => ⟨S_, .f32⟩
  | 86 => ⟨S8192, .f32⟩
  | 87 => ⟨S8192x1, .f32⟩
  | 88 => ⟨S_, .f32⟩
  | 89 => ⟨S8192x1, .f32⟩
  | 90 => ⟨S8192x1, .f32⟩
  | 91 => ⟨S_, .i32⟩
  | 92 => ⟨S_, .f32⟩
  | 93 => ⟨S8192, .f32⟩
  | 94 => ⟨S8192x1, .f32⟩
  | 95 => ⟨S_, .f32⟩
  | 96 => ⟨S8192x1, .f32⟩
  | 97 => ⟨S8192x1, .f32⟩
  | 98 => ⟨S8192x2000, .f32⟩
  | 99 => ⟨S8192x2000, .f32⟩
  | 100 => ⟨S8192x2000, .f32⟩
  | 101 => ⟨S_, .f32⟩
  | 102 => ⟨S_, .f32⟩
  | 103 => ⟨S_, .f32⟩
  | 104 => ⟨S_, .f32⟩
  | 105 => ⟨S8192, .f32⟩
  | 106 => ⟨S8192x1, .f32⟩
  | 107 => ⟨S8192x1, .f32⟩
  | 108 => ⟨S8192x1, .f32⟩
  | 109 => ⟨S_, .f32⟩
  | 110 => ⟨S_, .i1⟩
  | 111 => ⟨S_, .f32⟩
  | 112 => ⟨S_, .f32⟩
  | 113 => ⟨S8192x1, .f32⟩
  | 114 => ⟨S8192x1, .f32⟩
  | 115 => ⟨S8192x1, .f32⟩
  | 116 => ⟨S8192x2000, .f32⟩
  | 117 => ⟨S8192x2000, .f32⟩
  | 118 => ⟨S_, .f32⟩
  | 119 => ⟨S8192x1, .f32⟩
  | 120 => ⟨S8192x1, .f32⟩
  | 121 => ⟨S8192x2000, .f32⟩
  | 122 => ⟨S8192x2000, .f32⟩
  | 123 => ⟨S8192x2000, .f32⟩
  | 124 => ⟨S1x2000, .f32⟩
  | 125 => ⟨S8192x2000, .f32⟩
  | 126 => ⟨S8192x2000, .f32⟩
  | 127 => ⟨S8192x2000, .f32⟩
  | _ => ⟨S8192x2000, .f32⟩

abbrev hbmTy0_1 (i : Nat) : BufTy := match i % 128 with
  | 0 => ⟨S8192x2000, .f32⟩
  | 1 => ⟨S1x2000, .f32⟩
  | 2 => ⟨S8192x2000, .f32⟩
  | 3 => ⟨S8192x2000, .f32⟩
  | 4 => ⟨S8192x2000, .f32⟩
  | 5 => ⟨S8192x2000, .f32⟩
  | 6 => ⟨S1x2000, .f32⟩
  | 7 => ⟨S8192x2000, .f32⟩
  | 8 => ⟨S8192x2000, .f32⟩
  | 9 => ⟨S_, .f32⟩
  | 10 => ⟨S8192x2000, .f32⟩
  | 11 => ⟨S8192x2000, .f32⟩
  | 12 => ⟨S_, .f32⟩
  | 13 => ⟨S8192x2000, .f32⟩
  | 14 => ⟨S8192x2000, .f32⟩
  | 15 => ⟨S_, .f32⟩
  | 16 => ⟨S8192x2000, .f32⟩
  | 17 => ⟨S8192x2000, .f32⟩
  | 18 => ⟨S8192x2000, .f32⟩
  | _ => ⟨S8192x2000, .f32⟩

abbrev hbmTy (i : Nat) : BufTy := match i / 128 with
  | 0 => hbmTy0_0 i
  | 1 => hbmTy0_1 i
  | _ => ⟨S8192x2000, .f32⟩

abbrev bufTy : (tb : Table) → Fin (tcTables nBuf tb) → BufTy
  | .hbm, ⟨i, _⟩ => hbmTy i
  | _, _ => ⟨S8192x2000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_cst_0 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_cst_1 : Ref sig .tc := ⟨.hbm, 26, rfl⟩
abbrev main_call0_call0_v8 : Ref sig .tc := ⟨.hbm, 27, rfl⟩
abbrev main_call0_call0_cst_2 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_call0_v12 : Ref sig .tc := ⟨.hbm, 32, rfl⟩
abbrev main_call0_call0_cst_3 : Ref sig .tc := ⟨.hbm, 33, rfl⟩
abbrev main_call0_call0_v13 : Ref sig .tc := ⟨.hbm, 34, rfl⟩
abbrev main_call0_call0_cst_4 : Ref sig .tc := ⟨.hbm, 35, rfl⟩
abbrev main_call0_call0_call0_v0 : Ref sig .tc := ⟨.hbm, 36, rfl⟩
abbrev main_call0_call0_call0_v1 : Ref sig .tc := ⟨.hbm, 37, rfl⟩
abbrev main_call0_v0 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_cst_1 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_cst_2 : Ref sig .tc := ⟨.hbm, 47, rfl⟩
abbrev main_v11 : Ref sig .tc := ⟨.hbm, 48, rfl⟩
abbrev main_v12 : Ref sig .tc := ⟨.hbm, 49, rfl⟩
abbrev main_cst_3 : Ref sig .tc := ⟨.hbm, 50, rfl⟩
abbrev main_v13 : Ref sig .tc := ⟨.hbm, 51, rfl⟩
abbrev main_v14 : Ref sig .tc := ⟨.hbm, 52, rfl⟩
abbrev main_c_4 : Ref sig .tc := ⟨.hbm, 53, rfl⟩
abbrev main_call1_call0_cst : Ref sig .tc := ⟨.hbm, 54, rfl⟩
abbrev main_call1_call0_v0 : Ref sig .tc := ⟨.hbm, 55, rfl⟩
abbrev main_call1_call0_v1 : Ref sig .tc := ⟨.hbm, 56, rfl⟩
abbrev main_call1_call0_cst_0 : Ref sig .tc := ⟨.hbm, 57, rfl⟩
abbrev main_call1_call0_v2 : Ref sig .tc := ⟨.hbm, 58, rfl⟩
abbrev main_call1_call0_v3 : Ref sig .tc := ⟨.hbm, 59, rfl⟩
abbrev main_call1_call0_v4 : Ref sig .tc := ⟨.hbm, 60, rfl⟩
abbrev main_call1_call0_v5 : Ref sig .tc := ⟨.hbm, 61, rfl⟩
abbrev main_call1_call0_v6 : Ref sig .tc := ⟨.hbm, 62, rfl⟩
abbrev main_call1_call0_v7 : Ref sig .tc := ⟨.hbm, 63, rfl⟩
abbrev main_call1_call0_cst_1 : Ref sig .tc := ⟨.hbm, 64, rfl⟩
abbrev main_call1_call0_v8 : Ref sig .tc := ⟨.hbm, 65, rfl⟩
abbrev main_call1_call0_cst_2 : Ref sig .tc := ⟨.hbm, 66, rfl⟩
abbrev main_call1_call0_v9 : Ref sig .tc := ⟨.hbm, 67, rfl⟩
abbrev main_call1_call0_v10 : Ref sig .tc := ⟨.hbm, 68, rfl⟩
abbrev main_call1_call0_v11 : Ref sig .tc := ⟨.hbm, 69, rfl⟩
abbrev main_call1_call0_v12 : Ref sig .tc := ⟨.hbm, 70, rfl⟩
abbrev main_call1_call0_cst_3 : Ref sig .tc := ⟨.hbm, 71, rfl⟩
abbrev main_call1_call0_v13 : Ref sig .tc := ⟨.hbm, 72, rfl⟩
abbrev main_call1_call0_cst_4 : Ref sig .tc := ⟨.hbm, 73, rfl⟩
abbrev main_call1_call0_call0_v0 : Ref sig .tc := ⟨.hbm, 74, rfl⟩
abbrev main_call1_call0_call0_v1 : Ref sig .tc := ⟨.hbm, 75, rfl⟩
abbrev main_call1_v0 : Ref sig .tc := ⟨.hbm, 76, rfl⟩
abbrev main_v15 : Ref sig .tc := ⟨.hbm, 77, rfl⟩
abbrev main_v16 : Ref sig .tc := ⟨.hbm, 78, rfl⟩
abbrev main_v17 : Ref sig .tc := ⟨.hbm, 79, rfl⟩
abbrev main_cst_5 : Ref sig .tc := ⟨.hbm, 80, rfl⟩
abbrev main_v18 : Ref sig .tc := ⟨.hbm, 81, rfl⟩
abbrev main_v19 : Ref sig .tc := ⟨.hbm, 82, rfl⟩
abbrev main_v20 : Ref sig .tc := ⟨.hbm, 83, rfl⟩
abbrev main_v21 : Ref sig .tc := ⟨.hbm, 84, rfl⟩
abbrev main_cst_6 : Ref sig .tc := ⟨.hbm, 85, rfl⟩
abbrev main_v22 : Ref sig .tc := ⟨.hbm, 86, rfl⟩
abbrev main_v23 : Ref sig .tc := ⟨.hbm, 87, rfl⟩
abbrev main_cst_7 : Ref sig .tc := ⟨.hbm, 88, rfl⟩
abbrev main_v24 : Ref sig .tc := ⟨.hbm, 89, rfl⟩
abbrev main_v25 : Ref sig .tc := ⟨.hbm, 90, rfl⟩
abbrev main_c_8 : Ref sig .tc := ⟨.hbm, 91, rfl⟩
abbrev main_call2_call0_cst : Ref sig .tc := ⟨.hbm, 92, rfl⟩
abbrev main_call2_call0_v0 : Ref sig .tc := ⟨.hbm, 93, rfl⟩
abbrev main_call2_call0_v1 : Ref sig .tc := ⟨.hbm, 94, rfl⟩
abbrev main_call2_call0_cst_0 : Ref sig .tc := ⟨.hbm, 95, rfl⟩
abbrev main_call2_call0_v2 : Ref sig .tc := ⟨.hbm, 96, rfl⟩
abbrev main_call2_call0_v3 : Ref sig .tc := ⟨.hbm, 97, rfl⟩
abbrev main_call2_call0_v4 : Ref sig .tc := ⟨.hbm, 98, rfl⟩
abbrev main_call2_call0_v5 : Ref sig .tc := ⟨.hbm, 99, rfl⟩
abbrev main_call2_call0_v6 : Ref sig .tc := ⟨.hbm, 100, rfl⟩
abbrev main_call2_call0_v7 : Ref sig .tc := ⟨.hbm, 101, rfl⟩
abbrev main_call2_call0_cst_1 : Ref sig .tc := ⟨.hbm, 102, rfl⟩
abbrev main_call2_call0_v8 : Ref sig .tc := ⟨.hbm, 103, rfl⟩
abbrev main_call2_call0_cst_2 : Ref sig .tc := ⟨.hbm, 104, rfl⟩
abbrev main_call2_call0_v9 : Ref sig .tc := ⟨.hbm, 105, rfl⟩
abbrev main_call2_call0_v10 : Ref sig .tc := ⟨.hbm, 106, rfl⟩
abbrev main_call2_call0_v11 : Ref sig .tc := ⟨.hbm, 107, rfl⟩
abbrev main_call2_call0_v12 : Ref sig .tc := ⟨.hbm, 108, rfl⟩
abbrev main_call2_call0_cst_3 : Ref sig .tc := ⟨.hbm, 109, rfl⟩
abbrev main_call2_call0_v13 : Ref sig .tc := ⟨.hbm, 110, rfl⟩
abbrev main_call2_call0_cst_4 : Ref sig .tc := ⟨.hbm, 111, rfl⟩
abbrev main_call2_call0_call0_v0 : Ref sig .tc := ⟨.hbm, 112, rfl⟩
abbrev main_call2_call0_call0_v1 : Ref sig .tc := ⟨.hbm, 113, rfl⟩
abbrev main_call2_v0 : Ref sig .tc := ⟨.hbm, 114, rfl⟩
abbrev main_v26 : Ref sig .tc := ⟨.hbm, 115, rfl⟩
abbrev main_v27 : Ref sig .tc := ⟨.hbm, 116, rfl⟩
abbrev main_v28 : Ref sig .tc := ⟨.hbm, 117, rfl⟩
abbrev main_cst_9 : Ref sig .tc := ⟨.hbm, 118, rfl⟩
abbrev main_v29 : Ref sig .tc := ⟨.hbm, 119, rfl⟩
abbrev main_v30 : Ref sig .tc := ⟨.hbm, 120, rfl⟩
abbrev main_v31 : Ref sig .tc := ⟨.hbm, 121, rfl⟩
abbrev main_v32 : Ref sig .tc := ⟨.hbm, 122, rfl⟩
abbrev main_v33 : Ref sig .tc := ⟨.hbm, 123, rfl⟩
abbrev main_v34 : Ref sig .tc := ⟨.hbm, 124, rfl⟩
abbrev main_v35 : Ref sig .tc := ⟨.hbm, 125, rfl⟩
abbrev main_v36 : Ref sig .tc := ⟨.hbm, 126, rfl⟩
abbrev main_v37 : Ref sig .tc := ⟨.hbm, 127, rfl⟩
abbrev main_v38 : Ref sig .tc := ⟨.hbm, 128, rfl⟩
abbrev main_v39 : Ref sig .tc := ⟨.hbm, 129, rfl⟩
abbrev main_v40 : Ref sig .tc := ⟨.hbm, 130, rfl⟩
abbrev main_v41 : Ref sig .tc := ⟨.hbm, 131, rfl⟩
abbrev main_v42 : Ref sig .tc := ⟨.hbm, 132, rfl⟩
abbrev main_v43 : Ref sig .tc := ⟨.hbm, 133, rfl⟩
abbrev main_v44 : Ref sig .tc := ⟨.hbm, 134, rfl⟩
abbrev main_v45 : Ref sig .tc := ⟨.hbm, 135, rfl⟩
abbrev main_v46 : Ref sig .tc := ⟨.hbm, 136, rfl⟩
abbrev main_call3_cst : Ref sig .tc := ⟨.hbm, 137, rfl⟩
abbrev main_call3_v0 : Ref sig .tc := ⟨.hbm, 138, rfl⟩
abbrev main_v47 : Ref sig .tc := ⟨.hbm, 139, rfl⟩
abbrev main_cst_10 : Ref sig .tc := ⟨.hbm, 140, rfl⟩
abbrev main_v48 : Ref sig .tc := ⟨.hbm, 141, rfl⟩
abbrev main_v49 : Ref sig .tc := ⟨.hbm, 142, rfl⟩
abbrev main_cst_11 : Ref sig .tc := ⟨.hbm, 143, rfl⟩
abbrev main_v50 : Ref sig .tc := ⟨.hbm, 144, rfl⟩
abbrev main_v51 : Ref sig .tc := ⟨.hbm, 145, rfl⟩
abbrev main_v52 : Ref sig .tc := ⟨.hbm, 146, rfl⟩

abbrev nD : Nat := 1
abbrev τ : Topo := Topo.v7x

variable {F : FTy → Type} [FloatOps F]

class Facts₀ : Prop where
  reducesTo_S8192x2000_S8192_d1 : S8192x2000.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x2000_0_1 : S8192x1.BroadcastsInDim S8192x2000 (![0, 1] : Fin 2 → Fin S8192x2000.rank)
  bcast_S2000_S1x2000_1 : S2000.BroadcastsInDim S1x2000 (![1] : Fin 1 → Fin S1x2000.rank)
  bcast_S1x2000_S8192x2000_0_1 : S1x2000.BroadcastsInDim S8192x2000 (![0, 1] : Fin 2 → Fin S8192x2000.rank)
  bcast_S_S8192x2000 : S_.BroadcastsInDim S8192x2000 (![] : Fin 0 → Fin S8192x2000.rank)
  dot_S8192x2000_S2000x2000_S8192x2000_1_1_0_0_n_n_wf : DotDims.WF S8192x2000 S2000x2000 S8192x2000 [1] [1] [0] [0] [] []

variable [Facts₀]

def dot_S8192x2000_S2000x2000_S8192x2000_1_1_0_0_n_n : DotDims S8192x2000 S2000x2000 S8192x2000 where
  lhsContracting := [1]
  rhsContracting := [1]
  lhsNonContracting := [0]
  rhsNonContracting := [0]
  lhsBatch := []
  rhsBatch := []
  wf := dot_S8192x2000_S2000x2000_S8192x2000_1_1_0_0_n_n_wf

class Facts : Prop extends Facts₀ where

variable [Facts]
-- ==== Proof.DampedLayer.lean ====
/-
  The layer both programs compute, entry by entry, on the extended reals.

  Three activation matrices (previous, own, next), each with 2000 columns, are standardized row by row: a row's mean is
  its sum over 2000, its spread the square root of the sum of squared deviations over 1999, and an entry becomes
  (x − mean) / (spread + ε).  The three standardized matrices are mapped by three 2000×2000 weight matrices, an output
  column c taking the products against ROW c of each weight matrix; the three results and the three bias vectors are
  added, the sum is cut below at zero, and the result is blended with the own activation:
      out(r, c) = 0.7 · max(pre(r, c), 0) + 0.3 · own(r, c).
  The literals are the single-precision words both programs carry; they are never evaluated here.
  Everything is stated for any number of rows R, so that the same functions describe a whole array and one block of
  its rows; the congruence lemmas move a row's statistics between the two.
-/
import Idealize.ShloMosaic.PureOps.Ideal
import Idealize.ShloMosaic.Lib.ValueIdx

noncomputable section

namespace Cert.DampedLayer

open Idealize.ShloMosaic Idealize.ShloMosaic.ValueIdx

/-- The word 2000.0: the number of columns. -/
abbrev wCols : EReal := Ideal.ofBits .f32 0x44FA0000#32
/-- The word 1999.0: the divisor of the sample variance. -/
abbrev wColsLessOne : EReal := Ideal.ofBits .f32 0x44F9E000#32
/-- The word of ε, the single-precision neighbour of 1e-8. -/
abbrev wEps : EReal := Ideal.ofBits .f32 0x322BCC77#32
/-- The word of the damping weight, the single-precision neighbour of 0.7. -/
abbrev wDamp : EReal := Ideal.ofBits .f32 0x3F333333#32
/-- The word of the complementary weight, the single-precision neighbour of 0.3. -/
abbrev wKeep : EReal := Ideal.ofBits .f32 0x3E99999A#32
/-- The zero word. -/
abbrev wZero : EReal := Ideal.ofBits .f32 0x00000000#32

/-- A matrix with R rows and 2000 columns. -/
abbrev Rows (R : ℕ) : Type := (⟨2, ![R, 2000]⟩ : Shape).Idx → EReal
/-- A 2000×2000 weight matrix, entry (s, k): output column s, input column k. -/
abbrev Weights : Type := (⟨2, ![2000, 2000]⟩ : Shape).Idx → EReal
/-- A bias vector. -/
abbrev Bias : Type := (⟨1, ![2000]⟩ : Shape).Idx → EReal

variable {R R' : ℕ}

/-- The mean of row r. -/
def rowMean (x : Rows R) (r : Fin R) : EReal :=
  Ideal.div (∑ j : Fin 2000, x (ix2 r j)) wCols

/-- The spread of row r: the square root of the sum of squared deviations from the mean, over 1999. -/
def rowSpread (x : Rows R) (r : Fin R) : EReal :=
  Ideal.sqrt (Ideal.div (∑ j : Fin 2000, (x (ix2 r j) - rowMean x r) * (x (ix2 r j) - rowMean x r)) wColsLessOne)

/-- The standardized entry (r, j). -/
def standardized (x : Rows R) (r : Fin R) (j : Fin 2000) : EReal :=
  Ideal.div (x (ix2 r j) - rowMean x r) (rowSpread x r + wEps)

/-- One dense map at (r, c): the standardized row r against row c of the weights. -/
def dense (x : Rows R) (W : Weights) (r : Fin R) (c : Fin 2000) : EReal :=
  ∑ k : Fin 2000, standardized x r k * W (ix2 c k)

/-- The pre-activation at (r, c): the three dense maps, then the three biases. -/
def pre (xp xs xn : Rows R) (Wf Wb Wl : Weights) (bf bb bl : Bias) (r : Fin R) (c : Fin 2000) : EReal :=
  ((dense xp Wf r c + dense xn Wb r c) + dense xs Wl r c) + ((bf (ix1 c) + bb (ix1 c)) + bl (ix1 c))

/-- The layer's output at (r, c). -/
def entry (xp xs xn : Rows R) (Wf Wb Wl : Weights) (bf bb bl : Bias) (r : Fin R) (c : Fin 2000) : EReal :=
  wDamp * max (pre xp xs xn Wf Wb Wl bf bb bl r c) wZero + wKeep * xs (ix2 r c)

/-- The layer's output as one array. -/
def output (xp xs xn : Rows R) (Wf Wb Wl : Weights) (bf bb bl : Bias) : Rows R :=
  fun i => entry xp xs xn Wf Wb Wl bf bb bl (i 0) (i 1)

theorem output_apply (xp xs xn : Rows R) (Wf Wb Wl : Weights) (bf bb bl : Bias) (r : Fin R) (c : Fin 2000) :
    output xp xs xn Wf Wb Wl bf bb bl (ix2 r c) = entry xp xs xn Wf Wb Wl bf bb bl r c := rfl

/-! ## A row's statistics depend on that row only -/

/-- Two matrices that agree on a row have the same mean there. -/
theorem rowMean_congr (y : Rows R') (x : Rows R) (r' : Fin R') (r : Fin R)
    (h : ∀ j : Fin 2000, y (ix2 r' j) = x (ix2 r j)) : rowMean y r' = rowMean x r := by
  unfold rowMean
  rw [Finset.sum_congr rfl fun j _ => h j]

/-- … the same spread … -/
theorem rowSpread_congr (y : Rows R') (x : Rows R) (r' : Fin R') (r : Fin R)
    (h : ∀ j : Fin 2000, y (ix2 r' j) = x (ix2 r j)) : rowSpread y r' = rowSpread x r := by
  unfold rowSpread
  rw [rowMean_congr y x r' r h, Finset.sum_congr rfl fun j _ => by rw [h j]]

/-- … and the same standardized entries. -/
theorem standardized_congr (y : Rows R') (x : Rows R) (r' : Fin R') (r : Fin R)
    (h : ∀ j : Fin 2000, y (ix2 r' j) = x (ix2 r j)) (j : Fin 2000) : standardized y r' j = standardized x r j := by
  unfold standardized
  rw [rowMean_congr y x r' r h, rowSpread_congr y x r' r h, h j]

/-- So the dense map of a block's row is the dense map of the array's row. -/
theorem dense_congr (y : Rows R') (x : Rows R) (W : Weights) (r' : Fin R') (r : Fin R)
    (h : ∀ j : Fin 2000, y (ix2 r' j) = x (ix2 r j)) (c : Fin 2000) : dense y W r' c = dense x W r c := by
  unfold dense
  exact Finset.sum_congr rfl fun k _ => by rw [standardized_congr y x r' r h k]

end Cert.DampedLayer

end
-- ==== Proof.LibPlainMatmul.lean ====
/-
  A plain matrix product read at an entry. For an M×K left operand and a K×N right operand contracted over the one
  shared axis (left axis 1 against right axis 0, no batch axis), the exact product into a zero accumulator has, at row r
  and column c, the value  Σ_k lhs(r, k) · rhs(k, c): the operand indices at output index (r, c) and contraction position
  k are (r, k) and (k, c).
-/
import Idealize.ShloMosaic.PureOps.Ideal.Laws
import Idealize.ShloMosaic.Lib.ValueIdx

noncomputable section

namespace PlainMatmul

open Idealize.ShloMosaic Idealize.ShloMosaic.ValueIdx

variable {M K N : ℕ}

/-- The left operand's row is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The product into the zero accumulator, at (r, c), is Σ_k lhs(r, k) · rhs(k, c). -/
theorem apply_zero {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end PlainMatmul

end
-- ==== Proof.LibMergedAxes.lean ====
/-
  Layout operations read at an index written by coordinates, for an array whose two leading axes (batch, head)
  are merged into one before a kernel and split again after it, and for a row statistic kept as a column.

  A shape cast keeps the row-major position of every element. So
  • merging the two leading axes, [a, b, c, d] → [n, c, d] with n = a·b, reads row z = p·b + q at (p, q, ·, ·), and
    splitting them again, [n, c, d] → [a, b, c, d], reads (p, q, ·, ·) at row z = p·b + q. The merged extent is a
    literal in a printed program (64, not 4·16), so it is a variable `n` here and only the row's value is related
    to p·b + q;
  • a vector [a] kept as a column [a, 1] reads (p, ·) at p.
  A broadcast along an axis of extent one reads the operand's one entry on that axis: a column [a, 1] broadcast
  to [a, b] reads (p, q) at (p, 0).
-/
import Idealize.ShloMosaic.Lib.ValueLayout

namespace Cert.LibMergedAxes

open Idealize.ShloMosaic Idealize.ShloMosaic.ValueIdx

variable {α : Type}

/-- An `[a, b, c, d]` array with its two leading axes merged, `[n, c, d]` with n = a·b, reads, at row
    `z = p·b + q`, the operand at `(p, q, r, e)`: both sit at row-major position ((p·b + q)·c + r)·d + e. -/
theorem shapeCast_abcd_ncd_apply {a b c d n : ℕ} (x : (⟨4, ![a, b, c, d]⟩ : Shape).Idx → α)
    (h : (⟨4, ![a, b, c, d]⟩ : Shape).ShapeCasts ⟨3, ![n, c, d]⟩) (p : Fin a) (q : Fin b) (r : Fin c) (e : Fin d)
    (z : Fin n) (hz : z.val = p.val * b + q.val) :
    shapeCast ⟨3, ![n, c, d]⟩ x h (ix3 z r e) = x (ix4 p q r e) :=
  shapeCast_apply x h _ _ (by
    rw [Shape.rowMajor_val_four, Shape.rowMajor_val_three]
    show ((p.val * b + q.val) * c + r.val) * d + e.val = (z.val * c + r.val) * d + e.val
    rw [hz])

/-- An `[n, c, d]` array, n = a·b, with its leading axis split, `[a, b, c, d]`, reads, at `(p, q, r, e)`, the
    operand at row `z = p·b + q`. -/
theorem shapeCast_ncd_abcd_apply {a b c d n : ℕ} (x : (⟨3, ![n, c, d]⟩ : Shape).Idx → α)
    (h : (⟨3, ![n, c, d]⟩ : Shape).ShapeCasts ⟨4, ![a, b, c, d]⟩) (p : Fin a) (q : Fin b) (r : Fin c) (e : Fin d)
    (z : Fin n) (hz : z.val = p.val * b + q.val) :
    shapeCast ⟨4, ![a, b, c, d]⟩ x h (ix4 p q r e) = x (ix3 z r e) :=
  shapeCast_apply x h _ _ (by
    rw [Shape.rowMajor_val_three, Shape.rowMajor_val_four]
    show (z.val * c + r.val) * d + e.val = ((p.val * b + q.val) * c + r.val) * d + e.val
    rw [hz])

/-- A vector `[a]` kept as a column `[a, 1]` reads, at `(p, u)`, the operand at `p`, whatever the unit
    coordinate `u`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column `[a, 1]` broadcast to `[a, b]` reads, at `(p, q)`, the operand at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.LibMergedAxes
-- ==== Proof.BodyEntry.lean ====
/-
  The kernel's body, read at one entry of its 128-row block.

  The body standardizes each of its three 128×2000 blocks row by row — a row's sum over the 2000 lanes divided by
  2000 is the mean, the sum of squared deviations divided by 1999 and rooted is the spread, an entry becomes
  (x − mean) / (spread + ε) —, multiplies each standardized block by a 2000×2000 weight matrix already laid out as
  (input column, output column), adds the three products, adds one bias row to every row, cuts at zero and blends
  with the own block: 0.7 · max(·, 0) + 0.3 · own.  Roundings to half precision are the identity on exact values.
  Entry (p, q) of the result therefore depends on row p of each block, column q of each weight matrix and entry q of
  the bias row.
-/
import proofs.«172869_j14731737825659_2_alg».proof.Proof.Gen.KernelIdeal.Skeleton
import proofs.«172869_j14731737825659_2_alg».proof.Proof.DampedLayer
import proofs.«172869_j14731737825659_2_alg».proof.Proof.LibPlainMatmul
import proofs.«172869_j14731737825659_2_alg».proof.Proof.LibMergedAxes
import Idealize.ShloMosaic.PureOps.Ideal.Laws
import Idealize.ShloMosaic.Lib.ValueLayout
import Idealize.ShloMosaic.Lib.Pipeline.Value

noncomputable section

namespace Cert.KernelIdeal.BodyEntry

open Cert.KernelIdeal Cert.KernelIdeal.Gen Idealize.ShloMosaic Idealize.ShloMosaic.ValueIdx Cert.DampedLayer

/-- A lane sum of a 128×2000 block, at row p, is the sum of that row. -/
theorem laneSum_apply (v : FVec Ideal S128x2000 .f32) (h : S128x2000.Reduces [1] S128) (hφ : FKind.Formats .f32)
    (hacc : (0x00000000#32 : BitVec 32) = FKind.add.neutral .f32 hφ) (p : Fin 128) :
    multiReduction .add [1] S128 v 0x00000000#32 h hφ hacc (ix1 p) = ∑ j : Fin 2000, v (ix2 p j) := by
  refine (Ideal.multiReduction_add_single v 0x00000000#32 h hφ hacc (ix1 p)).trans ?_
  exact Finset.sum_congr rfl fun j _ => congrArg v (funext fun a => Fin.ext (by
    match a with
    | ⟨0, _⟩ => rfl
    | ⟨1, _⟩ => rfl))

/-- The body's mean column (the lane sum kept as a column, over 2000), at row p, is the row's mean. -/
theorem mean_apply (v : FVec Ideal S128x2000 .f32) (p : Fin 128) (u : Fin 1) :
    k0_pay3 (F := Ideal) v (ix2 p u) = rowMean v p := by
  show Ideal.div (shapeCast S128x1 (multiReduction .add [1] S128 v 0x00000000#32 reduces_S128x2000_S128 (.inl rfl) rfl)
      shapeCasts_S128_S128x1 (ix2 p u)) wCols = _
  rw [Cert.LibMergedAxes.shapeCast_a_a1_apply]
  exact congrArg (fun s => Ideal.div s wCols) (laneSum_apply v _ _ _ p)

/-- The body's centred block (the block minus its mean column copied along the lanes), at (p, j). -/
theorem centred_apply (v : FVec Ideal S128x2000 .f32) (p : Fin 128) (j : Fin 2000) :
    k0_pay5 (F := Ideal) v (ix2 p j) = v (ix2 p j) - rowMean v p := by
  show v (ix2 p j) - broadcastTo S128x2000 (k0_pay3 (F := Ideal) v) broadcasts_S128x1_S128x2000 (ix2 p j) = _
  rw [Cert.LibMergedAxes.broadcastTo_a1_ab_apply, mean_apply]

/-- The body's spread column, at row p, is the row's spread. -/
theorem spread_apply (v : FVec Ideal S128x2000 .f32) (p : Fin 128) (u : Fin 1) :
    k0_pay4 (F := Ideal) v (ix2 p u) = rowSpread v p := by
  show Ideal.sqrt (Ideal.div (shapeCast S128x1 (multiReduction .add [1] S128
      (mulf (k0_pay5 (F := Ideal) v) (k0_pay5 (F := Ideal) v)) 0x00000000#32 reduces_S128x2000_S128 (.inl rfl) rfl)
      shapeCasts_S128_S128x1 (ix2 p u)) wColsLessOne) = _
  rw [Cert.LibMergedAxes.shapeCast_a_a1_apply]
  refine (congrArg (fun s => Ideal.sqrt (Ideal.div s wColsLessOne))
    (laneSum_apply (mulf (k0_pay5 (F := Ideal) v) (k0_pay5 (F := Ideal) v)) _ _ _ p)).trans ?_
  unfold rowSpread
  refine congrArg (fun s => Ideal.sqrt (Ideal.div s wColsLessOne)) (Finset.sum_congr rfl fun j _ => ?_)
  show k0_pay5 (F := Ideal) v (ix2 p j) * k0_pay5 (F := Ideal) v (ix2 p j) = _
  rw [centred_apply]

/-- The body's standardized block: the centred block over the spread column plus ε, copied along the lanes. -/
def normalized (v : FVec Ideal S128x2000 .f32) : FVec Ideal S128x2000 .f32 :=
  divf (k0_pay5 (F := Ideal) v) (broadcastTo S128x2000
    (addf (k0_pay4 (F := Ideal) v) (broadcast S128x1 (Scalar.ofBits (F := Ideal) .f32 0x322BCC77#32))) broadcasts_S128x1_S128x2000)

theorem normalized_apply (v : FVec Ideal S128x2000 .f32) (p : Fin 128) (j : Fin 2000) :
    normalized v (ix2 p j) = standardized v p j := by
  show Ideal.div (k0_pay5 (F := Ideal) v (ix2 p j)) (broadcastTo S128x2000
    (addf (k0_pay4 (F := Ideal) v) (broadcast S128x1 (Scalar.ofBits (F := Ideal) .f32 0x322BCC77#32))) broadcasts_S128x1_S128x2000 (ix2 p j)) = _
  rw [Cert.LibMergedAxes.broadcastTo_a1_ab_apply, centred_apply]
  show Ideal.div (v (ix2 p j) - rowMean v p) (k0_pay4 (F := Ideal) v (ix2 p (0 : Fin 1)) + wEps) = _
  rw [spread_apply]
  rfl

/-- One of the body's three products: the standardized block, rounded to half precision, times a weight block, into
    a zero accumulator. -/
def product (v : FVec Ideal S128x2000 .f32) (T : FVec Ideal S2000x2000 .bf16) : FVec Ideal S128x2000 .f32 :=
  matmul dot_S128x2000_S2000x2000_S128x2000_1_0_0_1_n_n none (truncf .bf16 (normalized v) bitsLt_bf16_f32)
    (shapeCast S2000x2000 T shapeCasts_S2000x2000_S2000x2000) (constant S128x2000 .f32 0x00000000#32)

/-- At (p, q) it is the standardized row p against column q of the weight block. -/
theorem product_apply (v : FVec Ideal S128x2000 .f32) (T : FVec Ideal S2000x2000 .bf16) (p : Fin 128) (q : Fin 2000) :
    product v T (ix2 p q) = ∑ k : Fin 2000, standardized v p k * T (ix2 k q) := by
  show FloatOps.matmul (DotDims.plain 128 2000 2000) none (truncf .bf16 (normalized v) bitsLt_bf16_f32)
    (shapeCast S2000x2000 T shapeCasts_S2000x2000_S2000x2000) (constant (F := Ideal) ⟨2, ![128, 2000]⟩ .f32 0x00000000#32) (ix2 p q) = _
  refine (PlainMatmul.apply_zero _ _ p q).trans (Finset.sum_congr rfl fun k _ => ?_)
  rw [shapeCast_self]
  show normalized v (ix2 p k) * T (ix2 k q) = _
  rw [normalized_apply]

/-- The body's stored value is the blend of the three products plus the bias row, cut at zero, with the own block. -/
theorem stored_eq (x0 x1 x2 : FVec Ideal S128x2000 .f32) (x3 x4 x5 : FVec Ideal S2000x2000 .bf16) (x6 : FVec Ideal S1x2000 .f32) :
    k0_pay1 (F := Ideal) (k0_pay6 (k0_pay2 x0 x3) (k0_pay4 x1) (k0_pay5 x1) (Scalar.ofBits .f32 0x322BCC77#32) x4 x2 x5 x6) x2
      = addf (mulf (broadcast S128x2000 (Scalar.ofBits (F := Ideal) .f32 0x3F333333#32))
            (maximumf (addf (addf (addf (product x0 x3) (product x1 x4)) (product x2 x5))
                (broadcastTo S128x2000 (shapeCast S1x2000 x6 shapeCasts_S1x2000_S1x2000) broadcasts_S1x2000_S128x2000))
              (broadcast S128x2000 (Scalar.ofBits (F := Ideal) .f32 0x00000000#32))))
          (mulf (broadcast S128x2000 (Scalar.ofBits (F := Ideal) .f32 0x3E99999A#32)) x2) := rfl

/-- Entry (p, q) of the body's stored value. -/
theorem stored_apply (x0 x1 x2 : FVec Ideal S128x2000 .f32) (x3 x4 x5 : FVec Ideal S2000x2000 .bf16) (x6 : FVec Ideal S1x2000 .f32)
    (p : Fin 128) (q : Fin 2000) :
    k0_pay1 (F := Ideal) (k0_pay6 (k0_pay2 x0 x3) (k0_pay4 x1) (k0_pay5 x1) (Scalar.ofBits .f32 0x322BCC77#32) x4 x2 x5 x6) x2 (ix2 p q)
      = wDamp * max ((((∑ k : Fin 2000, standardized x0 p k * x3 (ix2 k q)) + (∑ k : Fin 2000, standardized x1 p k * x4 (ix2 k q)))
            + (∑ k : Fin 2000, standardized x2 p k * x5 (ix2 k q))) + x6 (ix2 (0 : Fin 1) q)) wZero
          + wKeep * x2 (ix2 p q) := by
  rw [stored_eq]
  show wDamp * max (((product x0 x3 (ix2 p q) + product x1 x4 (ix2 p q)) + product x2 x5 (ix2 p q))
      + broadcastTo S128x2000 (shapeCast S1x2000 x6 shapeCasts_S1x2000_S1x2000) broadcasts_S1x2000_S128x2000 (ix2 p q)) wZero
      + wKeep * x2 (ix2 p q) = _
  rw [product_apply, product_apply, product_apply, broadcastTo_1b_ab_apply, shapeCast_self]

end Cert.KernelIdeal.BodyEntry

end
-- ==== Proof.BlockRows.lean ====
/-
  From the kernel's blocks to its whole result array.

  The grid has 64 points; point t works on rows 128·t … 128·t + 127 of the three activation arrays and of the result,
  and on the whole of the three weight arrays and of the bias row.  Before the grid the host transposes the three
  weight matrices (so that entry (k, s) of what the kernel sees is entry (s, k) of the argument), rounds them to half
  precision (the identity on exact values), and adds the three bias vectors into one row.  So what point t writes
  back is block t of the layer's output array, computed from the arguments; the 64 blocks tile the array, hence the
  array ends holding the layer's output everywhere.
-/
import proofs.«172869_j14731737825659_2_alg».proof.Proof.Gen.KernelIdeal.Value
import proofs.«172869_j14731737825659_2_alg».proof.Proof.BodyEntry
import Idealize.ShloMosaic.Lib.StableHlo.Run
import Idealize.ShloMosaic.Lib.ValueLayout
import Idealize.ShloMosaic.Lib.Pipeline.Value

noncomputable section

namespace Cert.KernelIdeal.BlockRows

open Cert.KernelIdeal Cert.KernelIdeal.Gen Idealize.ShloMosaic Idealize.ShloMosaic.TcCoe Idealize.SL.Sem
open Idealize.ShloMosaic.ValueIdx Cert.DampedLayer
open Idealize.ShloMosaic.Pipeline (Dat)

variable (m : (ℓ : Loc nD τ sig) → Buf (Elt Ideal) ℓ) (ρ : Dev nD → PrngReg)

/-- The layer's output array of the nine argument arrays as launched. -/
def result (c : Dev nD) : S8192x2000.Idx → EReal :=
  output (m ((c : Thread nD τ).loc main_arg0)) (m ((c : Thread nD τ).loc main_arg1)) (m ((c : Thread nD τ).loc main_arg2))
    (m ((c : Thread nD τ).loc main_arg3)) (m ((c : Thread nD τ).loc main_arg5)) (m ((c : Thread nD τ).loc main_arg7))
    (m ((c : Thread nD τ).loc main_arg4)) (m ((c : Thread nD τ).loc main_arg6)) (m ((c : Thread nD τ).loc main_arg8))

/-- The three bias vectors added, at entry s. -/
def biasSum (bf bb bl : Bias) (s : Fin 2000) : EReal := (bf (ix1 s) + bb (ix1 s)) + bl (ix1 s)

theorem origin : (![0, 0] : Fin 2 → Nat) = fun _ => 0 := funext fun a => by fin_cases a <;> rfl

/-- Where each window's block sits at point t: the three activation windows and the result window at block row t,
    column block 0; the weight and bias windows at the one block (0, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## The arrays the region finds -/

/-- The forward weights as the region finds them: the argument transposed. -/
theorem weights_f (c : Dev nD) : Eq (α := FVec Ideal S2000x2000 .bf16) (V m c main_v1)
    (truncf (F := Ideal) .bf16 (transpose S2000x2000 [1, 0] (m ((c : Thread nD τ).loc main_arg3) : FVec Ideal S2000x2000 .f32)
      transposes_S2000x2000_S2000x2000_1_0) bitsLt_bf16_f32) := by
  dsimp only [Gen.V, Gen.hostOps0]; after_results

/-- The backward weights as the region finds them. -/
theorem weights_b (c : Dev nD) : Eq (α := FVec Ideal S2000x2000 .bf16) (V m c main_v3)
    (truncf (F := Ideal) .bf16 (transpose S2000x2000 [1, 0] (m ((c : Thread nD τ).loc main_arg5) : FVec Ideal S2000x2000 .f32)
      transposes_S2000x2000_S2000x2000_1_0) bitsLt_bf16_f32) := by
  dsimp only [Gen.V, Gen.hostOps0]; after_results

/-- The lateral weights as the region finds them. -/
theorem weights_l (c : Dev nD) : Eq (α := FVec Ideal S2000x2000 .bf16) (V m c main_v5)
    (truncf (F := Ideal) .bf16 (transpose S2000x2000 [1, 0] (m ((c : Thread nD τ).loc main_arg7) : FVec Ideal S2000x2000 .f32)
      transposes_S2000x2000_S2000x2000_1_0) bitsLt_bf16_f32) := by
  dsimp only [Gen.V, Gen.hostOps0]; after_results

/-- The bias row as the region finds it: the three bias vectors added, kept as one row. -/
theorem bias_row (c : Dev nD) : Eq (α := FVec Ideal S1x2000 .f32) (V m c main_v8)
    (shapeCast S1x2000 (addf (F := Ideal) (addf (F := Ideal) (m ((c : Thread nD τ).loc main_arg4) : FVec Ideal S2000 .f32)
        (m ((c : Thread nD τ).loc main_arg6) : FVec Ideal S2000 .f32))
        (m ((c : Thread nD τ).loc main_arg8) : FVec Ideal S2000 .f32)) shapeCasts_S2000_S1x2000) := by
  dsimp only [Gen.V, Gen.hostOps0]; after_results; rfl

/-! ## The blocks at point t, read at coordinates -/

/-- Row p of the previous-activation block at point t is row 128·t + p of the argument. -/
theorem block_prev (c : Dev nD) (t : Fin cfg0.N) (p : Fin 128) (j : Fin 2000) (r : Fin 8192) (hr : r.val = t.val * 128 + p.val) :
    iblk m c 0 t (ix2 p j) = m ((c : Thread nD τ).loc main_arg0) (ix2 r j) := by
  show V m c main_arg0 (((cfg0.win 0).blk t).view.emb (ix2 p j)) = _
  rw [V_main_arg0]
  refine congrArg _ (funext fun a => Fin.ext ?_)
  obtain ⟨e00, e01, -⟩ := block_index t
  match a with
  | ⟨0, _⟩ => show win0_0.index t (0 : Fin 2) * 128 + 1 * p.val = r.val; omega
  | ⟨1, _⟩ => show win0_0.index t (1 : Fin 2) * 2000 + 1 * j.val = j.val; omega

/-- Row p of the next-activation block at point t is row 128·t + p of the argument. -/
theorem block_next (c : Dev nD) (t : Fin cfg0.N) (p : Fin 128) (j : Fin 2000) (r : Fin 8192) (hr : r.val = t.val * 128 + p.val) :
    iblk m c 1 t (ix2 p j) = m ((c : Thread nD τ).loc main_arg2) (ix2 r j) := by
  show V m c main_arg2 (((cfg0.win 1).blk t).view.emb (ix2 p j)) = _
  rw [V_main_arg2]
  refine congrArg _ (funext fun a => Fin.ext ?_)
  obtain ⟨-, -, e10, e11, -⟩ := block_index t
  match a with
  | ⟨0, _⟩ => show win0_1.index t (0 : Fin 2) * 128 + 1 * p.val = r.val; omega
  | ⟨1, _⟩ => show win0_1.index t (1 : Fin 2) * 2000 + 1 * j.val = j.val; omega

/-- Row p of the own-activation block at point t is row 128·t + p of the argument. -/
theorem block_own (c : Dev nD) (t : Fin cfg0.N) (p : Fin 128) (j : Fin 2000) (r : Fin 8192) (hr : r.val = t.val * 128 + p.val) :
    iblk m c 2 t (ix2 p j) = m ((c : Thread nD τ).loc main_arg1) (ix2 r j) := by
  show V m c main_arg1 (((cfg0.win 2).blk t).view.emb (ix2 p j)) = _
  rw [V_main_arg1]
  refine congrArg _ (funext fun a => Fin.ext ?_)
  obtain ⟨-, -, -, -, e20, e21, -⟩ := block_index t
  match a with
  | ⟨0, _⟩ => show win0_2.index t (0 : Fin 2) * 128 + 1 * p.val = r.val; omega
  | ⟨1, _⟩ => show win0_2.index t (1 : Fin 2) * 2000 + 1 * j.val = j.val; omega

/-- The forward weight block at any point, at (k, s), is the argument at (s, k). -/
theorem block_wf (c : Dev nD) (t : Fin cfg0.N) (k s : Fin 2000) :
    iblk m c 3 t (ix2 k s) = m ((c : Thread nD τ).loc main_arg3) (ix2 s k) := by
  show V m c main_v1 (((cfg0.win 3).blk t).view.emb (ix2 k s)) = _
  obtain ⟨-, -, -, -, -, -, e30, e31, -⟩ := block_index t
  have he : ((cfg0.win 3).blk t).view.emb (ix2 k s) = ix2 k s := funext fun a => Fin.ext (by
    match a with
    | ⟨0, _⟩ => show win0_3.index t (0 : Fin 2) * 2000 + 1 * k.val = k.val; omega
    | ⟨1, _⟩ => show win0_3.index t (1 : Fin 2) * 2000 + 1 * s.val = s.val; omega)
  rw [he, weights_f]
  exact transpose_ix2_apply _ _ k s

/-- The backward weight block, likewise. -/
theorem block_wb (c : Dev nD) (t : Fin cfg0.N) (k s : Fin 2000) :
    iblk m c 4 t (ix2 k s) = m ((c : Thread nD τ).loc main_arg5) (ix2 s k) := by
  show V m c main_v3 (((cfg0.win 4).blk t).view.emb (ix2 k s)) = _
  obtain ⟨-, -, -, -, -, -, -, -, e40, e41, -⟩ := block_index t
  have he : ((cfg0.win 4).blk t).view.emb (ix2 k s) = ix2 k s := funext fun a => Fin.ext (by
    match a with
    | ⟨0, _⟩ => show win0_4.index t (0 : Fin 2) * 2000 + 1 * k.val = k.val; omega
    | ⟨1, _⟩ => show win0_4.index t (1 : Fin 2) * 2000 + 1 * s.val = s.val; omega)
  rw [he, weights_b]
  exact transpose_ix2_apply _ _ k s

/-- The lateral weight block, likewise. -/
theorem block_wl (c : Dev nD) (t : Fin cfg0.N) (k s : Fin 2000) :
    iblk m c 5 t (ix2 k s) = m ((c : Thread nD τ).loc main_arg7) (ix2 s k) := by
  show V m c main_v5 (((cfg0.win 5).blk t).view.emb (ix2 k s)) = _
  obtain ⟨-, -, -, -, -, -, -, -, -, -, e50, e51, -⟩ := block_index t
  have he : ((cfg0.win 5).blk t).view.emb (ix2 k s) = ix2 k s := funext fun a => Fin.ext (by
    match a with
    | ⟨0, _⟩ => show win0_5.index t (0 : Fin 2) * 2000 + 1 * k.val = k.val; omega
    | ⟨1, _⟩ => show win0_5.index t (1 : Fin 2) * 2000 + 1 * s.val = s.val; omega)
  rw [he, weights_l]
  exact transpose_ix2_apply _ _ k s

/-- The bias block at any point, at (0, s), is the sum of the three bias vectors at s. -/
theorem block_bias (c : Dev nD) (t : Fin cfg0.N) (s : Fin 2000) :
    iblk m c 6 t (ix2 (0 : Fin 1) s)
      = biasSum (m ((c : Thread nD τ).loc main_arg4)) (m ((c : Thread nD τ).loc main_arg6)) (m ((c : Thread nD τ).loc main_arg8)) s := by
  show V m c main_v8 (((cfg0.win 6).blk t).view.emb (ix2 (0 : Fin 1) s)) = _
  obtain ⟨-, -, -, -, -, -, -, -, -, -, -, -, e60, e61, -⟩ := block_index t
  have he : ((cfg0.win 6).blk t).view.emb (ix2 (0 : Fin 1) s) = ix2 (0 : Fin 1) s := funext fun a => Fin.ext (by
    match a with
    | ⟨0, _⟩ => show win0_6.index t (0 : Fin 2) * 1 + 1 * 0 = 0; omega
    | ⟨1, _⟩ => show win0_6.index t (1 : Fin 2) * 2000 + 1 * s.val = s.val; omega)
  rw [he, bias_row, shapeCast_a_1a_apply]
  rfl

/-! ## What a point writes back -/

/-- Entry (p, q) of the body's stored value over blocks that are rows of the arrays IS the layer's entry (r, q),
    r the array row that block row p is. -/
theorem stored_entry {R : ℕ} (Ap As An : Rows R) (Wf Wb Wl : Weights) (bf bb bl : Bias)
    (x0 x1 x2 : FVec Ideal S128x2000 .f32) (x3 x4 x5 : FVec Ideal S2000x2000 .bf16) (x6 : FVec Ideal S1x2000 .f32)
    (p : Fin 128) (r : Fin R) (q : Fin 2000)
    (h0 : ∀ j : Fin 2000, x0 (ix2 p j) = Ap (ix2 r j)) (h1 : ∀ j : Fin 2000, x1 (ix2 p j) = An (ix2 r j))
    (h2 : ∀ j : Fin 2000, x2 (ix2 p j) = As (ix2 r j))
    (h3 : ∀ k : Fin 2000, x3 (ix2 k q) = Wf (ix2 q k)) (h4 : ∀ k : Fin 2000, x4 (ix2 k q) = Wb (ix2 q k))
    (h5 : ∀ k : Fin 2000, x5 (ix2 k q) = Wl (ix2 q k))
    (h6 : x6 (ix2 (0 : Fin 1) q) = biasSum bf bb bl q) :
    k0_pay1 (F := Ideal) (k0_pay6 (k0_pay2 x0 x3) (k0_pay4 x1) (k0_pay5 x1) (Scalar.ofBits .f32 0x322BCC77#32) x4 x2 x5 x6) x2 (ix2 p q)
      = entry Ap As An Wf Wb Wl bf bb bl r q := by
  have d0 : (∑ k : Fin 2000, standardized x0 p k * x3 (ix2 k q)) = dense Ap Wf r q :=
    Finset.sum_congr rfl fun k _ => by rw [standardized_congr x0 Ap p r h0 k, h3 k]
  have d1 : (∑ k : Fin 2000, standardized x1 p k * x4 (ix2 k q)) = dense An Wb r q :=
    Finset.sum_congr rfl fun k _ => by rw [standardized_congr x1 An p r h1 k, h4 k]
  have d2 : (∑ k : Fin 2000, standardized x2 p k * x5 (ix2 k q)) = dense As Wl r q :=
    Finset.sum_congr rfl fun k _ => by rw [standardized_congr x2 As p r h2 k, h5 k]
  rw [BodyEntry.stored_apply, h6, h2 q, d0, d1, d2]
  rfl

/-- WHAT POINT t WRITES BACK is block t of the layer's output array. -/
theorem flushed_eq (c : Dev nD) (t : Fin cfg0.N) :
    (dats m 0 c).flushed 7 t = ((cfg0.win 7).blk t).view.read (Elt Ideal) (result m c) := by
  rw [Value.flushed7]
  unfold out0_7
  rw [View.canon_unit_zero origin]
  simp only [View.ld_unit_zero (S := S128x2000) origin, View.ld_unit_zero (S := S2000x2000) origin,
    View.ld_unit_zero (S := S1x2000) origin]
  funext j
  obtain ⟨p, q, rfl⟩ : ∃ (p : Fin 128) (q : Fin 2000), j = ix2 p q := ⟨j 0, j 1, eq_ix2 j⟩
  have ht : t.val < 64 := lt_of_lt_of_eq t.isLt (N_0 : cfg0.N = 64)
  obtain ⟨-, -, -, -, -, -, -, -, -, -, -, -, -, -, e70, e71⟩ := block_index t
  have he : ((cfg0.win 7).blk t).view.emb (ix2 p q) = ix2 (⟨t.val * 128 + p.val, by omega⟩ : Fin 8192) q :=
    funext fun a => Fin.ext (by
      match a with
      | ⟨0, _⟩ => show win0_7.index t (0 : Fin 2) * 128 + 1 * p.val = t.val * 128 + p.val; omega
      | ⟨1, _⟩ => show win0_7.index t (1 : Fin 2) * 2000 + 1 * q.val = q.val; omega)
  show k0_pay1 (F := Ideal) (k0_pay6 (k0_pay2 (iblk m c 0 t) (iblk m c 3 t)) (k0_pay4 (iblk m c 1 t)) (k0_pay5 (iblk m c 1 t))
      (Scalar.ofBits .f32 0x322BCC77#32) (iblk m c 4 t) (iblk m c 2 t) (iblk m c 5 t) (iblk m c 6 t)) (iblk m c 2 t) (ix2 p q)
    = result m c (((cfg0.win 7).blk t).view.emb (ix2 p q))
  rw [he]
  exact stored_entry (m ((c : Thread nD τ).loc main_arg0)) (m ((c : Thread nD τ).loc main_arg1)) (m ((c : Thread nD τ).loc main_arg2))
    (m ((c : Thread nD τ).loc main_arg3)) (m ((c : Thread nD τ).loc main_arg5)) (m ((c : Thread nD τ).loc main_arg7))
    (m ((c : Thread nD τ).loc main_arg4)) (m ((c : Thread nD τ).loc main_arg6)) (m ((c : Thread nD τ).loc main_arg8))
    (iblk m c 0 t) (iblk m c 1 t) (iblk m c 2 t) (iblk m c 3 t) (iblk m c 4 t) (iblk m c 5 t) (iblk m c 6 t)
    p (⟨t.val * 128 + p.val, by omega⟩ : Fin 8192) q
    (fun j => block_prev m c t p j _ rfl) (fun j => block_next m c t p j _ rfl) (fun j => block_own m c t p j _ rfl)
    (fun k => block_wf m c t k q) (fun k => block_wb m c t k q) (fun k => block_wl m c t k q) (block_bias m c t q)

/-! ## The blocks tile the array -/

/-- An index of the result array is in point t's block iff each coordinate is in the block's range on its axis. -/
theorem mem_block (t : Fin cfg0.N) (i : S8192x2000.Idx) :
    i ∈ ((cfg0.win 7).blk t).view.set ↔ ∀ a : Fin 2, win0_7.index t a * S128x2000.size a ≤ (i a).val
      ∧ (i a).val < win0_7.index t a * S128x2000.size a + S128x2000.size a := by
  show i ∈ ((View.whole main_v9).slice (win0_7.rect t)).set ↔ _
  rw [View.set_slice_whole, Rect.mem_set_unit]
  exact Iff.rfl

/-- Every index of the result array is in the block of the point its row falls in: row r in point r / 128. -/
theorem covered (i : S8192x2000.Idx) :
    ∃ t : Fin cfg0.N, (cfg0.win 7).flush t = true ∧ i ∈ ((cfg0.win 7).blk t).view.set := by
  have hi0 : (i 0).val < 8192 := (i 0).isLt
  have hi1 : (i 1).val < 2000 := (i 1).isLt
  have hN : cfg0.N = 64 := N_0
  have hlt : (i 0).val / 128 < cfg0.N := by rw [hN]; omega
  obtain ⟨-, -, -, -, -, -, -, -, -, -, -, -, -, -, e70, e71⟩ := block_index ⟨(i 0).val / 128, hlt⟩
  refine ⟨⟨(i 0).val / 128, hlt⟩, flush0_7 _, ?_⟩
  rw [mem_block]
  intro a
  match a with
  | ⟨0, _⟩ =>
    show win0_7.index ⟨(i 0).val / 128, hlt⟩ (0 : Fin 2) * 128 ≤ (i 0).val
      ∧ (i 0).val < win0_7.index ⟨(i 0).val / 128, hlt⟩ (0 : Fin 2) * 128 + 128
    have e : win0_7.index ⟨(i 0).val / 128, hlt⟩ (0 : Fin 2) = (i 0).val / 128 := e70
    omega
  | ⟨1, _⟩ =>
    show win0_7.index ⟨(i 0).val / 128, hlt⟩ (1 : Fin 2) * 2000 ≤ (i 1).val
      ∧ (i 1).val < win0_7.index ⟨(i 0).val / 128, hlt⟩ (1 : Fin 2) * 2000 + 2000
    omega

/-- THE RESULT ARRAY after the run is the layer's output of the argument arrays. -/
theorem final (c : Dev nD) : (dats m 0 c).arrAt 7 cfg0.N = result m c :=
  (dats m 0 c).arrAt_eq_of_cover 7 (result m c) (fun t _ => flushed_eq m c t) covered

/-- The kernel's run: the result array at the layer's output, the arguments unchanged. -/
theorem run : θ_run (defs (F := Ideal)) (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.BlockRows

end
-- ==== Proof.ReferenceTerm.lean ====
/-
  The reference program's result as one term of its nine argument arrays, built from small pieces.

  The program standardizes three activation matrices row by row, maps each by a weight matrix, adds the three products
  and three biases, cuts the sum below at zero and blends it with the own activation.  Each definition below is one
  stage of that computation, written with exactly the operations the program performs, in its order, for any float
  values `F`:
    `meanCol`       the row sums over the 2000 columns, as a column, divided by the word 2000.0;
    `centred`       the matrix less its row means;
    `divisor`       the word 2000.0 less the integer 1 converted to a float: the divisor of the sample variance;
    `varCol`        the row sums of the squared deviations over that divisor, kept where the divisor is positive
                    (the other branch of the selection is a not-a-number word);
    `stdCol`        its square root;
    `standardizedArr`  the centred matrix over (spread + ε), the column broadcast along the rows;
    `denseArr`      the standardized matrix against a weight matrix, contracting both second axes;
    `biasArr`       a bias vector broadcast to every row;
    `preArr`        the three products and three biases, added in the program's order;
    `reluArr`       the maximum with the zero word;
    `outArr`        0.7 · relu(pre) + 0.3 · own, the two weights as single-precision words.
-/
import proofs.«172869_j14731737825659_2_alg».proof.Proof.Gen.ReferenceIdeal

noncomputable section

namespace Cert.ReferenceIdeal.HandRun

open Cert.ReferenceIdeal Cert.ReferenceIdeal.Gen Idealize.ShloMosaic

variable {F : FTy → Type} [FloatOps F]

/-- An 8192×2000 matrix of single-precision values. -/
abbrev Mat (F : FTy → Type) : Type := (⟨S8192x2000, .f32⟩ : BufTy).Contents (Elt F)
/-- A column: one value per row. -/
abbrev Col (F : FTy → Type) : Type := (⟨S8192x1, .f32⟩ : BufTy).Contents (Elt F)
/-- A 2000×2000 weight matrix. -/
abbrev Wts (F : FTy → Type) : Type := (⟨S2000x2000, .f32⟩ : BufTy).Contents (Elt F)
/-- A bias vector. -/
abbrev Vec (F : FTy → Type) : Type := (⟨S2000, .f32⟩ : BufTy).Contents (Elt F)
/-- A scalar. -/
abbrev Sca (F : FTy → Type) : Type := (⟨S_, .f32⟩ : BufTy).Contents (Elt F)

/-- The row means as a column: the row sums from the zero word, over the word 2000.0. -/
def meanCol (x : Mat F) : Col F :=
  Host.divf
    (broadcastInDim S8192x1 ![0] bcast_S8192_S8192x1_0
      (Host.reduceAdd x (constant S_ .f32 0x00000000#32 : Sca F) reducesTo_S8192x2000_S8192_d1 h_S_))
    (broadcastInDim S8192x1 ![] bcast_S_S8192x1 (constant S_ .f32 0x44FA0000#32 : Sca F))

/-- The matrix less its row means. -/
def centred (x : Mat F) : Mat F :=
  subf x (broadcastInDim S8192x2000 ![0, 1] bcast_S8192x1_S8192x2000_0_1 (meanCol x))

/-- The divisor of the sample variance: the word 2000.0 less the integer one as a float. -/
def divisor : Sca F :=
  subf (constant S_ .f32 0x44FA0000#32) (sitofp .f32 (constantI S_ 32 1#32))

/-- The row variances as a column: the sums of squared deviations over the divisor where the divisor is positive,
    a not-a-number word elsewhere. -/
def varCol (x : Mat F) : Col F :=
  select (broadcastInDim S8192x1 ![] bcast_S_S8192x1 (cmpf .ogt (divisor : Sca F) (constant S_ .f32 0x00000000#32)))
    (Host.divf
      (broadcastInDim S8192x1 ![0] bcast_S8192_S8192x1_0
        (Host.reduceAdd (mulf (centred x) (centred x)) (constant S_ .f32 0x00000000#32 : Sca F)
          reducesTo_S8192x2000_S8192_d1 h_S_))
      (broadcastInDim S8192x1 ![] bcast_S_S8192x1 (divisor : Sca F)))
    (broadcastInDim S8192x1 ![] bcast_S_S8192x1 (constant S_ .f32 0x7FC00000#32 : Sca F))

/-- The row spreads as a column. -/
def stdCol (x : Mat F) : Col F := Host.sqrt (varCol x)

/-- The standardized matrix: centred, over spread + ε. -/
def standardizedArr (x : Mat F) : Mat F :=
  Host.divf (centred x)
    (broadcastInDim S8192x2000 ![0, 1] bcast_S8192x1_S8192x2000_0_1
      (addf (stdCol x) (broadcastInDim S8192x1 ![] bcast_S_S8192x1 (constant S_ .f32 0x322BCC77#32 : Sca F))))

/-- One dense map: the standardized matrix against the weights, both second axes contracted. -/
def denseArr (x : Mat F) (W : Wts F) : Mat F :=
  Host.dotGeneral dot_S8192x2000_S2000x2000_S8192x2000_1_1_0_0_n_n none (standardizedArr x) W

/-- A bias vector on every row. -/
def biasArr (b : Vec F) : Mat F :=
  broadcastInDim S8192x2000 ![0, 1] bcast_S1x2000_S8192x2000_0_1 (broadcastInDim S1x2000 ![1] bcast_S2000_S1x2000_1 b)

/-- The pre-activation, summed in the program's order. -/
def preArr (xp xs xn : Mat F) (Wf Wb Wl : Wts F) (bf bb bl : Vec F) : Mat F :=
  addf (addf (addf (addf (addf (denseArr xp Wf) (biasArr bf)) (denseArr xn Wb)) (biasArr bb)) (denseArr xs Wl)) (biasArr bl)

/-- The cut below at the zero word. -/
def reluArr (p : Mat F) : Mat F :=
  maximumf p (broadcastInDim S8192x2000 ![] bcast_S_S8192x2000 (constant S_ .f32 0x00000000#32 : Sca F))

/-- The program's result. -/
def outArr (xp xs xn : Mat F) (Wf Wb Wl : Wts F) (bf bb bl : Vec F) : Mat F :=
  addf
    (mulf (broadcastInDim S8192x2000 ![] bcast_S_S8192x2000 (constant S_ .f32 0x3F333333#32 : Sca F))
      (reluArr (preArr xp xs xn Wf Wb Wl bf bb bl)))
    (mulf (broadcastInDim S8192x2000 ![] bcast_S_S8192x2000 (constant S_ .f32 0x3E99999A#32 : Sca F)) xs)

end Cert.ReferenceIdeal.HandRun

end
-- ==== Proof.ReferenceRun.lean ====
/-
  The reference program run: its operations as one list, and what its buffers hold when it ends.

  The program is a straight line of array operations, its four kinds of helper function called seven times in all
  (three row-spread computations, each of which calls the variance, which calls a selection; one cut at zero).  A call
  runs the callee's operations on the caller's arrays, so the whole program is ONE list of 138 operations: the 63 of
  the main function and, at each call, the callee's own over that call's arrays.  Running the list from any memory,
  every execution terminates; the result array then holds `outArr` of the nine argument arrays (each operation's
  result is its function of its operands' contents, and no operation writes an argument), and the arguments are as
  they were.
-/
import proofs.«172869_j14731737825659_2_alg».proof.Proof.ReferenceTerm
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The program's 138 operations in order, each call replaced by the callee's operations over that call's arrays. -/
abbrev ops : List (HloOp τ sig (Elt F)) :=
  [ nullary main_cst (constant S_ .f32 0x00000000#32),
    binary main_arg0 main_cst main_v0 ((fun x v => Host.reduceAdd x v reducesTo_S8192x2000_S8192_d1 h_S_) : (⟨S8192x2000, .f32⟩ : BufTy).Contents (Elt F) → (⟨S_, .f32⟩ : BufTy).Contents (Elt F) → (⟨S8192, .f32⟩ : BufTy).Contents (Elt F)),
    unary main_v0 main_v1 (broadcastInDim S8192x1 ![0] bcast_S8192_S8192x1_0 : (⟨S8192, .f32⟩ : BufTy).Contents (Elt F) → (⟨S8192x1, .f32⟩ : BufTy).Contents (Elt F)),
    nullary main_cst_0 (constant S_ .f32 0x44FA0000#32),
    unary main_cst_0 main_v2 (broadcastInDim S8192x1 ![] bcast_S_S8192x1 : (⟨S_, .f32⟩ : BufTy).Contents (Elt F) → (⟨S8192x1, .f32⟩ : BufTy).Contents (Elt F)),
    binary main_v1 main_v2 main_v3 (Host.divf : (⟨S8192x1, .f32⟩ : BufTy).Contents (Elt F) → (⟨S8192x1, .f32⟩ : BufTy).Contents (Elt F) → (⟨S8192x1, .f32⟩ : BufTy).Contents (Elt F)),
    nullary main_c (constantI S_ 32 1#32),
    TRef.nullary main_call0.call0.cst (constant S_ .f32 0x00000000#32),
    TRef.binary (.of main_arg0) main_call0.call0.cst main_call0.call0.v0 (fun x v => Host.reduceAdd x v reducesTo_S8192x2000_S8192_d1 h_S_),
    TRef.unary main_call0.call0.v0 main_call0.call0.v1 (broadcastInDim S8192x1 ![0] bcast_S8192_S8192x1_0),
    TRef.nullary main_call0.call0.cst_0 (constant S_ .f32 0x44FA0000#32),
    TRef.unary main_call0.call0.cst_0 main_call0.call0.v2 (broadcastInDim S8192x1 ![] bcast_S_S8192x1),
    TRef.binary main_call0.call0.v1 main_call0.call0.v2 main_call0.call0.v3 Host.divf,
    TRef.unary main_call0.call0.v3 main_call0.call0.v4 (broadcastInDim S8192x2000 ![0, 1] bcast_S8192x1_S8192x2000_0_1),
    TRef.binary (.of main_arg0) main_call0.call0.v4 main_call0.call0.v5 subf,
    TRef.binary main_call0.call0.v5 main_call0.call0.v5 main_call0.call0.v6 mulf,
    TRef.unary (.of main_c) main_call0.call0.v7 (sitofp .f32),
    TRef.nullary main_call0.call0.cst_1 (constant S_ .f32 0x44FA0000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S8192x2000_S8192_d1 h_S_),
    TRef.unary main_call0.call0.v9 main_call0.call0.v10 (broadcastInDim S8192x1 ![0] bcast_S8192_S8192x1_0),
    TRef.unary main_call0.call0.v8 main_call0.call0.v11 (broadcastInDim S8192x1 ![] bcast_S_S8192x1),
    TRef.binary main_call0.call0.v10 main_call0.call0.v11 main_call0.call0.v12 Host.divf,
    TRef.nullary main_call0.call0.cst_3 (constant S_ .f32 0x00000000#32),
    TRef.binary main_call0.call0.v8 main_call0.call0.cst_3 main_call0.call0.v13 (cmpf .ogt),
    TRef.nullary main_call0.call0.cst_4 (constant S_ .f32 0x7FC00000#32),
    TRef.unary main_call0.call0.cst_4 main_call0.call0.call0.v0 id,
    TRef.unary main_call0.call0.call0.v0 main_call0.call0.call0.v1 (broadcastInDim S8192x1 ![] bcast_S_S8192x1),
    TRef.ternary main_call0.call0.v13 main_call0.call0.v12 main_call0.call0.call0.v1 main_call0.call0.call0.v2 (fun p a b => select (broadcastInDim S8192x1 ![] bcast_S_S8192x1 p) a b),
    TRef.unary main_call0.call0.call0.v2 main_call0.v1 Host.sqrt,
    unary main_v3 main_v5 (broadcastInDim S8192x2000 ![0, 1] bcast_S8192x1_S8192x2000_0_1 : (⟨S8192x1, .f32⟩ : BufTy).Contents (Elt F) → (⟨S8192x2000, .f32⟩ : BufTy).Contents (Elt F)),
    binary main_arg0 main_v5 main_v6 (subf : (⟨S8192x2000, .f32⟩ : BufTy).Contents (Elt F) → (⟨S8192x2000, .f32⟩ : BufTy).Contents (Elt F) → (⟨S8192x2000, .f32⟩ : BufTy).Contents (Elt F)),
    nullary main_cst_1 (constant S_ .f32 0x322BCC77#32),
    unary main_cst_1 main_v7 (broadcastInDim S8192x1 ![] bcast_S_S8192x1 : (⟨S_, .f32⟩ : BufTy).Contents (Elt F) → (⟨S8192x1, .f32⟩ : BufTy).Contents (Elt F)),
    binary main_v4 main_v7 main_v8 (addf : (⟨S8192x1, .f32⟩ : BufTy).Contents (Elt F) → (⟨S8192x1, .f32⟩ : BufTy).Contents (Elt F) → (⟨S8192x1, .f32⟩ : BufTy).Contents (Elt F)),
    unary main_v8 main_v9 (broadcastInDim S8192x2000 ![0, 1] bcast_S8192x1_S8192x2000_0_1 : (⟨S8192x1, .f32⟩ : BufTy).Contents (Elt F) → (⟨S8192x2000, .f32⟩ : BufTy).Contents (Elt F)),
    binary main_v6 main_v9 main_v10 (Host.divf : (⟨S8192x2000, .f32⟩ : BufTy).Contents (Elt F) → (⟨S8192x2000, .f32⟩ : BufTy).Contents (Elt F) → (⟨S8192x2000, .f32⟩ : BufTy).Contents (Elt F)),
    nullary main_cst_2 (constant S_ .f32 0x00000000#32),
    binary main_arg2 main_cst_2 main_v11 ((fun x v => Host.reduceAdd x v reducesTo_S8192x2000_S8192_d1 h_S_) : (⟨S8192x2000, .f32⟩ : BufTy).Contents (Elt F) → (⟨S_, .f32⟩ : BufTy).Contents (Elt F) → (⟨S8192, .f32⟩ : BufTy).Contents (Elt F)),
    unary main_v11 main_v12 (broadcastInDim S8192x1 ![0] bcast_S8192_S8192x1_0 : (⟨S8192, .f32⟩ : BufTy).Contents (Elt F) → (⟨S8192x1, .f32⟩ : BufTy).Contents (Elt F)),
    nullary main_cst_3 (constant S_ .f32 0x44FA0000#32),
    unary main_cst_3 main_v13 (broadcastInDim S8192x1 ![] bcast_S_S8192x1 : (⟨S_, .f32⟩ : BufTy).Contents (Elt F) → (⟨S8192x1, .f32⟩ : BufTy).Contents (Elt F)),
    binary main_v12 main_v13 main_v14 (Host.divf : (⟨S8192x1, .f32⟩ : BufTy).Contents (Elt F) → (⟨S8192x1, .f32⟩ : BufTy).Contents (Elt F) → (⟨S8192x1, .f32⟩ : BufTy).Contents (Elt F)),
    nullary main_c_4 (constantI S_ 32 1#32),
    TRef.nullary main_call1.call0.cst (constant S_ .f32 0x00000000#32),
    TRef.binary (.of main_arg2) main_call1.call0.cst main_call1.call0.v0 (fun x v => Host.reduceAdd x v reducesTo_S8192x2000_S8192_d1 h_S_),
    TRef.unary main_call1.call0.v0 main_call1.call0.v1 (broadcastInDim S8192x1 ![0] bcast_S8192_S8192x1_0),
    TRef.nullary main_call1.call0.cst_0 (constant S_ .f32 0x44FA0000#32),
    TRef.unary main_call1.call0.cst_0 main_call1.call0.v2 (broadcastInDim S8192x1 ![] bcast_S_S8192x1),
    TRef.binary main_call1.call0.v1 main_call1.call0.v2 main_call1.call0.v3 Host.divf,
    TRef.unary main_call1.call0.v3 main_call1.call0.v4 (broadcastInDim S8192x2000 ![0, 1] bcast_S8192x1_S8192x2000_0_1),
    TRef.binary (.of main_arg2) main_call1.call0.v4 main_call1.call0.v5 subf,
    TRef.binary main_call1.call0.v5 main_call1.call0.v5 main_call1.call0.v6 mulf,
    TRef.unary (.of main_c_4) main_call1.call0.v7 (sitofp .f32),
    TRef.nullary main_call1.call0.cst_1 (constant S_ .f32 0x44FA0000#32),
    TRef.binary main_call1.call0.cst_1 main_call1.call0.v7 main_call1.call0.v8 subf,
    TRef.nullary main_call1.call0.cst_2 (constant S_ .f32 0x00000000#32),
    TRef.binary main_call1.call0.v6 main_call1.call0.cst_2 main_call1.call0.v9 (fun x v => Host.reduceAdd x v reducesTo_S8192x2000_S8192_d1 h_S_),
    TRef.unary main_call1.call0.v9 main_call1.call0.v10 (broadcastInDim S8192x1 ![0] bcast_S8192_S8192x1_0),
    TRef.unary main_call1.call0.v8 main_call1.call0.v11 (broadcastInDim S8192x1 ![] bcast_S_S8192x1),
    TRef.binary main_call1.call0.v10 main_call1.call0.v11 main_call1.call0.v12 Host.divf,
    TRef.nullary main_call1.call0.cst_3 (constant S_ .f32 0x00000000#32),
    TRef.binary main_call1.call0.v8 main_call1.call0.cst_3 main_call1.call0.v13 (cmpf .ogt),
    TRef.nullary main_call1.call0.cst_4 (constant S_ .f32 0x7FC00000#32),
    TRef.unary main_call1.call0.cst_4 main_call1.call0.call0.v0 id,
    TRef.unary main_call1.call0.call0.v0 main_call1.call0.call0.v1 (broadcastInDim S8192x1 ![] bcast_S_S8192x1),
    TRef.ternary main_call1.call0.v13 main_call1.call0.v12 main_call1.call0.call0.v1 main_call1.call0.call0.v2 (fun p a b => select (broadcastInDim S8192x1 ![] bcast_S_S8192x1 p) a b),
    TRef.unary main_call1.call0.call0.v2 main_call1.v1 Host.sqrt,
    unary main_v14 main_v16 (broadcastInDim S8192x2000 ![0, 1] bcast_S8192x1_S8192x2000_0_1 : (⟨S8192x1, .f32⟩ : BufTy).Contents (Elt F) → (⟨S8192x2000, .f32⟩ : BufTy).Contents (Elt F)),
    binary main_arg2 main_v16 main_v17 (subf : (⟨S8192x2000, .f32⟩ : BufTy).Contents (Elt F) → (⟨S8192x2000, .f32⟩ : BufTy).Contents (Elt F) → (⟨S8192x2000, .f32⟩ : BufTy).Contents (Elt F)),
    nullary main_cst_5 (constant S_ .f32 0x322BCC77#32),
    unary main_cst_5 main_v18 (broadcastInDim S8192x1 ![] bcast_S_S8192x1 : (⟨S_, .f32⟩ : BufTy).Contents (Elt F) → (⟨S8192x1, .f32⟩ : BufTy).Contents (Elt F)),
    binary main_v15 main_v18 main_v19 (addf : (⟨S8192x1, .f32⟩ : BufTy).Contents (Elt F) → (⟨S8192x1, .f32⟩ : BufTy).Contents (Elt F) → (⟨S8192x1, .f32⟩ : BufTy).Contents (Elt F)),
    unary main_v19 main_v20 (broadcastInDim S8192x2000 ![0, 1] bcast_S8192x1_S8192x2000_0_1 : (⟨S8192x1, .f32⟩ : BufTy).Contents (Elt F) → (⟨S8192x2000, .f32⟩ : BufTy).Contents (Elt F)),
    binary main_v17 main_v20 main_v21 (Host.divf : (⟨S8192x2000, .f32⟩ : BufTy).Contents (Elt F) → (⟨S8192x2000, .f32⟩ : BufTy).Contents (Elt F) → (⟨S8192x2000, .f32⟩ : BufTy).Contents (Elt F)),
    nullary main_cst_6 (constant S_ .f32 0x00000000#32),
    binary main_arg1 main_cst_6 main_v22 ((fun x v => Host.reduceAdd x v reducesTo_S8192x2000_S8192_d1 h_S_) : (⟨S8192x2000, .f32⟩ : BufTy).Contents (Elt F) → (⟨S_, .f32⟩ : BufTy).Contents (Elt F) → (⟨S8192, .f32⟩ : BufTy).Contents (Elt F)),
    unary main_v22 main_v23 (broadcastInDim S8192x1 ![0] bcast_S8192_S8192x1_0 : (⟨S8192, .f32⟩ : BufTy).Contents (Elt F) → (⟨S8192x1, .f32⟩ : BufTy).Contents (Elt F)),
    nullary main_cst_7 (constant S_ .f32 0x44FA0000#32),
    unary main_cst_7 main_v24 (broadcastInDim S8192x1 ![] bcast_S_S8192x1 : (⟨S_, .f32⟩ : BufTy).Contents (Elt F) → (⟨S8192x1, .f32⟩ : BufTy).Contents (Elt F)),
    binary main_v23 main_v24 main_v25 (Host.divf : (⟨S8192x1, .f32⟩ : BufTy).Contents (Elt F) → (⟨S8192x1, .f32⟩ : BufTy).Contents (Elt F) → (⟨S8192x1, .f32⟩ : BufTy).Contents (Elt F)),
    nullary main_c_8 (constantI S_ 32 1#32),
    TRef.nullary main_call2.call0.cst (constant S_ .f32 0x00000000#32),
    TRef.binary (.of main_arg1) main_call2.call0.cst main_call2.call0.v0 (fun x v => Host.reduceAdd x v reducesTo_S8192x2000_S8192_d1 h_S_),
    TRef.unary main_call2.call0.v0 main_call2.call0.v1 (broadcastInDim S8192x1 ![0] bcast_S8192_S8192x1_0),
    TRef.nullary main_call2.call0.cst_0 (constant S_ .f32 0x44FA0000#32),
    TRef.unary main_call2.call0.cst_0 main_call2.call0.v2 (broadcastInDim S8192x1 ![] bcast_S_S8192x1),
    TRef.binary main_call2.call0.v1 main_call2.call0.v2 main_call2.call0.v3 Host.divf,
    TRef.unary main_call2.call0.v3 main_call2.call0.v4 (broadcastInDim S8192x2000 ![0, 1] bcast_S8192x1_S8192x2000_0_1),
    TRef.binary (.of main_arg1) main_call2.call0.v4 main_call2.call0.v5 subf,
    TRef.binary main_call2.call0.v5 main_call2.call0.v5 main_call2.call0.v6 mulf,
    TRef.unary (.of main_c_8) main_call2.call0.v7 (sitofp .f32),
    TRef.nullary main_call2.call0.cst_1 (constant S_ .f32 0x44FA0000#32),
    TRef.binary main_call2.call0.cst_1 main_call2.call0.v7 main_call2.call0.v8 subf,
    TRef.nullary main_call2.call0.cst_2 (constant S_ .f32 0x00000000#32),
    TRef.binary main_call2.call0.v6 main_call2.call0.cst_2 main_call2.call0.v9 (fun x v => Host.reduceAdd x v reducesTo_S8192x2000_S8192_d1 h_S_),
    TRef.unary main_call2.call0.v9 main_call2.call0.v10 (broadcastInDim S8192x1 ![0] bcast_S8192_S8192x1_0),
    TRef.unary main_call2.call0.v8 main_call2.call0.v11 (broadcastInDim S8192x1 ![] bcast_S_S8192x1),
    TRef.binary main_call2.call0.v10 main_call2.call0.v11 main_call2.call0.v12 Host.divf,
    TRef.nullary main_call2.call0.cst_3 (constant S_ .f32 0x00000000#32),
    TRef.binary main_call2.call0.v8 main_call2.call0.cst_3 main_call2.call0.v13 (cmpf .ogt),
    TRef.nullary main_call2.call0.cst_4 (constant S_ .f32 0x7FC00000#32),
    TRef.unary main_call2.call0.cst_4 main_call2.call0.call0.v0 id,
    TRef.unary main_call2.call0.call0.v0 main_call2.call0.call0.v1 (broadcastInDim S8192x1 ![] bcast_S_S8192x1),
    TRef.ternary main_call2.call0.v13 main_call2.call0.v12 main_call2.call0.call0.v1 main_call2.call0.call0.v2 (fun p a b => select (broadcastInDim S8192x1 ![] bcast_S_S8192x1 p) a b),
    TRef.unary main_call2.call0.call0.v2 main_call2.v1 Host.sqrt,
    unary main_v25 main_v27 (broadcastInDim S8192x2000 ![0, 1] bcast_S8192x1_S8192x2000_0_1 : (⟨S8192x1, .f32⟩ : BufTy).Contents (Elt F) → (⟨S8192x2000, .f32⟩ : BufTy).Contents (Elt F)),
    binary main_arg1 main_v27 main_v28 (subf : (⟨S8192x2000, .f32⟩ : BufTy).Contents (Elt F) → (⟨S8192x2000, .f32⟩ : BufTy).Contents (Elt F) → (⟨S8192x2000, .f32⟩ : BufTy).Contents (Elt F)),
    nullary main_cst_9 (constant S_ .f32 0x322BCC77#32),
    unary main_cst_9 main_v29 (broadcastInDim S8192x1 ![] bcast_S_S8192x1 : (⟨S_, .f32⟩ : BufTy).Contents (Elt F) → (⟨S8192x1, .f32⟩ : BufTy).Contents (Elt F)),
    binary main_v26 main_v29 main_v30 (addf : (⟨S8192x1, .f32⟩ : BufTy).Contents (Elt F) → (⟨S8192x1, .f32⟩ : BufTy).Contents (Elt F) → (⟨S8192x1, .f32⟩ : BufTy).Contents (Elt F)),
    unary main_v30 main_v31 (broadcastInDim S8192x2000 ![0, 1] bcast_S8192x1_S8192x2000_0_1 : (⟨S8192x1, .f32⟩ : BufTy).Contents (Elt F) → (⟨S8192x2000, .f32⟩ : BufTy).Contents (Elt F)),
    binary main_v28 main_v31 main_v32 (Host.divf : (⟨S8192x2000, .f32⟩ : BufTy).Contents (Elt F) → (⟨S8192x2000, .f32⟩ : BufTy).Contents (Elt F) → (⟨S8192x2000, .f32⟩ : BufTy).Contents (Elt F)),
    binary main_v10 main_arg3 main_v33 ((fun l r => Host.dotGeneral dot_S8192x2000_S2000x2000_S8192x2000_1_1_0_0_n_n none l r) : (⟨S8192x2000, .f32⟩ : BufTy).Contents (Elt F) → (⟨S2000x2000, .f32⟩ : BufTy).Contents (Elt F) → (⟨S8192x2000, .f32⟩ : BufTy).Contents (Elt F)),
    unary main_arg4 main_v34 (broadcastInDim S1x2000 ![1] bcast_S2000_S1x2000_1 : (⟨S2000, .f32⟩ : BufTy).Contents (Elt F) → (⟨S1x2000, .f32⟩ : BufTy).Contents (Elt F)),
    unary main_v34 main_v35 (broadcastInDim S8192x2000 ![0, 1] bcast_S1x2000_S8192x2000_0_1 : (⟨S1x2000, .f32⟩ : BufTy).Contents (Elt F) → (⟨S8192x2000, .f32⟩ : BufTy).Contents (Elt F)),
    binary main_v33 main_v35 main_v36 (addf : (⟨S8192x2000, .f32⟩ : BufTy).Contents (Elt F) → (⟨S8192x2000, .f32⟩ : BufTy).Contents (Elt F) → (⟨S8192x2000, .f32⟩ : BufTy).Contents (Elt F)),
    binary main_v21 main_arg5 main_v37 ((fun l r => Host.dotGeneral dot_S8192x2000_S2000x2000_S8192x2000_1_1_0_0_n_n none l r) : (⟨S8192x2000, .f32⟩ : BufTy).Contents (Elt F) → (⟨S2000x2000, .f32⟩ : BufTy).Contents (Elt F) → (⟨S8192x2000, .f32⟩ : BufTy).Contents (Elt F)),
    binary main_v36 main_v37 main_v38 (addf : (⟨S8192x2000, .f32⟩ : BufTy).Contents (Elt F) → (⟨S8192x2000, .f32⟩ : BufTy).Contents (Elt F) → (⟨S8192x2000, .f32⟩ : BufTy).Contents (Elt F)),
    unary main_arg6 main_v39 (broadcastInDim S1x2000 ![1] bcast_S2000_S1x2000_1 : (⟨S2000, .f32⟩ : BufTy).Contents (Elt F) → (⟨S1x2000, .f32⟩ : BufTy).Contents (Elt F)),
    unary main_v39 main_v40 (broadcastInDim S8192x2000 ![0, 1] bcast_S1x2000_S8192x2000_0_1 : (⟨S1x2000, .f32⟩ : BufTy).Contents (Elt F) → (⟨S8192x2000, .f32⟩ : BufTy).Contents (Elt F)),
    binary main_v38 main_v40 main_v41 (addf : (⟨S8192x2000, .f32⟩ : BufTy).Contents (Elt F) → (⟨S8192x2000, .f32⟩ : BufTy).Contents (Elt F) → (⟨S8192x2000, .f32⟩ : BufTy).Contents (Elt F)),
    binary main_v32 main_arg7 main_v42 ((fun l r => Host.dotGeneral dot_S8192x2000_S2000x2000_S8192x2000_1_1_0_0_n_n none l r) : (⟨S8192x2000, .f32⟩ : BufTy).Contents (Elt F) → (⟨S2000x2000, .f32⟩ : BufTy).Contents (Elt F) → (⟨S8192x2000, .f32⟩ : BufTy).Contents (Elt F)),
    binary main_v41 main_v42 main_v43 (addf : (⟨S8192x2000, .f32⟩ : BufTy).Contents (Elt F) → (⟨S8192x2000, .f32⟩ : BufTy).Contents (Elt F) → (⟨S8192x2000, .f32⟩ : BufTy).Contents (Elt F)),
    unary main_arg8 main_v44 (broadcastInDim S1x2000 ![1] bcast_S2000_S1x2000_1 : (⟨S2000, .f32⟩ : BufTy).Contents (Elt F) → (⟨S1x2000, .f32⟩ : BufTy).Contents (Elt F)),
    unary main_v44 main_v45 (broadcastInDim S8192x2000 ![0, 1] bcast_S1x2000_S8192x2000_0_1 : (⟨S1x2000, .f32⟩ : BufTy).Contents (Elt F) → (⟨S8192x2000, .f32⟩ : BufTy).Contents (Elt F)),
    binary main_v43 main_v45 main_v46 (addf : (⟨S8192x2000, .f32⟩ : BufTy).Contents (Elt F) → (⟨S8192x2000, .f32⟩ : BufTy).Contents (Elt F) → (⟨S8192x2000, .f32⟩ : BufTy).Contents (Elt F)),
    TRef.nullary main_call3.cst (constant S_ .f32 0x00000000#32),
    TRef.unary main_call3.cst main_call3.v0 (broadcastInDim S8192x2000 ![] bcast_S_S8192x2000),
    TRef.binary (.of main_v46) main_call3.v0 main_call3.v1 maximumf,
    nullary main_cst_10 (constant S_ .f32 0x3F333333#32),
    unary main_cst_10 main_v48 (broadcastInDim S8192x2000 ![] bcast_S_S8192x2000 : (⟨S_, .f32⟩ : BufTy).Contents (Elt F) → (⟨S8192x2000, .f32⟩ : BufTy).Contents (Elt F)),
    binary main_v48 main_v47 main_v49 (mulf : (⟨S8192x2000, .f32⟩ : BufTy).Contents (Elt F) → (⟨S8192x2000, .f32⟩ : BufTy).Contents (Elt F) → (⟨S8192x2000, .f32⟩ : BufTy).Contents (Elt F)),
    nullary main_cst_11 (constant S_ .f32 0x3E99999A#32),
    unary main_cst_11 main_v50 (broadcastInDim S8192x2000 ![] bcast_S_S8192x2000 : (⟨S_, .f32⟩ : BufTy).Contents (Elt F) → (⟨S8192x2000, .f32⟩ : BufTy).Contents (Elt F)),
    binary main_v50 main_arg1 main_v51 (mulf : (⟨S8192x2000, .f32⟩ : BufTy).Contents (Elt F) → (⟨S8192x2000, .f32⟩ : BufTy).Contents (Elt F) → (⟨S8192x2000, .f32⟩ : BufTy).Contents (Elt F)),
    binary main_v49 main_v51 main_v52 (addf : (⟨S8192x2000, .f32⟩ : BufTy).Contents (Elt F) → (⟨S8192x2000, .f32⟩ : BufTy).Contents (Elt F) → (⟨S8192x2000, .f32⟩ : BufTy).Contents (Elt F)) ]

set_option maxRecDepth 16384 in
set_option maxHeartbeats 4000000 in
/-- The program is that list run in order: the helper functions unfolded at their calls, sequencing reassociated. -/
theorem main_eq (c : Dev nD) : main (F := F) c = seq ops := by
  simp only [main, main_part0, main_part1, fn_std.body, fn_var.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
/-- Every operation touches arrays of the device only. -/
theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., binary_bufs_sub .., nullary_bufs_sub .., binary_bufs_sub .., unary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., binary_bufs_sub .., nullary_bufs_sub .., binary_bufs_sub ..,
    unary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., binary_bufs_sub ..,
    binary_bufs_sub .., unary_bufs_sub .., unary_bufs_sub .., binary_bufs_sub .., binary_bufs_sub .., binary_bufs_sub ..,
    unary_bufs_sub .., unary_bufs_sub .., binary_bufs_sub .., binary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., nullary_bufs_sub .., unary_bufs_sub .., binary_bufs_sub .., binary_bufs_sub ..⟩

set_option maxRecDepth 16384 in
set_option maxHeartbeats 32800000 in
/-- On the device, for any float values, from any memory with zero counters: every weakly fair execution of the program
    terminates with the result array at `outArr` of the nine argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v52)
          = outArr (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg5)) (m ((c.tc : Thread nD τ).loc main_arg7))
              (m ((c.tc : Thread nD τ).loc main_arg4)) (m ((c.tc : Thread nD τ).loc main_arg6)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v52).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl)⟩)
    (run_seq scopedRefs_eq scopedSems_eq defs main (fun _ => ops) main_eq (fun _ => ops_sub) m ρ)

end Cert.ReferenceIdeal.HandRun

end
-- ==== Proof.ReferenceEntry.lean ====
/-
  The reference program's result, read on the extended reals, is the damped layer's output.

  `outArr` composes the program's array operations; here each stage is read at one index.  On the extended reals the
  pointwise operations are the textbook ones by definition.  The others, one lemma each: a broadcast reads its operand
  at the coordinates it keeps; the row sum from the zero word is the sum of the row's 2000 entries; a product of the
  standardized matrix with a weight matrix, both second axes contracted, at (r, c) is the sum over k of entry (r, k)
  against weight (c, k).  The variance's divisor, the word 2000.0 less the integer one, is the word 1999.0 (both words
  are evaluated once), it is positive, and so the selection in the variance keeps the quotient and never reads its
  other branch.  The program adds products and biases alternately and the layer's definition adds products first:
  the same sum, addition on the extended reals being commutative and associative.  No finiteness is used.
-/
import proofs.«172869_j14731737825659_2_alg».proof.Proof.ReferenceRun
import proofs.«172869_j14731737825659_2_alg».proof.Proof.DampedLayer
import Idealize.ShloMosaic.Lib.IdealHost
import Idealize.ShloMosaic.Lib.Pipeline.Value

noncomputable section

namespace Cert.ReferenceIdeal.HandRun

open Cert.ReferenceIdeal Cert.ReferenceIdeal.Gen Idealize.ShloMosaic Idealize.ShloMosaic.TcCoe Idealize.SL.Sem
open Idealize.ShloMosaic.ValueIdx
open scoped BigOperators

/-! ### The words -/

/-- The word 2000.0 is the real number 2000. -/
theorem word_cols : Ideal.ofBits .f32 0x44FA0000#32 = ((2000 : ℝ) : EReal) := by
  simp [Ideal.ofBits, Ideal.ieee, -EReal.coe_mul]
  norm_num

/-- The word 1999.0 is the real number 1999. -/
theorem word_colsLessOne : Ideal.ofBits .f32 0x44F9E000#32 = ((1999 : ℝ) : EReal) := by
  simp [Ideal.ofBits, Ideal.ieee, -EReal.coe_mul]
  norm_num

/-- The divisor of the sample variance, 2000.0 less the integer one, is the word 1999.0. -/
theorem divisor_apply (i : S_.Idx) : (divisor (F := Ideal)) i = Cert.DampedLayer.wColsLessOne := by
  show Ideal.ofBits .f32 0x44FA0000#32 - (((1#32 : BitVec 32).toInt : ℝ) : EReal) = Ideal.ofBits .f32 0x44F9E000#32
  have h1 : (1#32 : BitVec 32).toInt = 1 := by decide
  rw [word_cols, word_colsLessOne, h1, Int.cast_one, ← EReal.coe_sub]
  norm_num

/-! ### The broadcasts read at an index -/

section Broadcasts
variable {α : Type}

/-- A vector of row values as a column. -/
theorem bcastCol_apply (y : S8192.Idx → α) (r : Fin 8192) (z : Fin 1) :
    broadcastInDim S8192x1 ![0] bcast_S8192_S8192x1_0 y (ix2 r z) = y (ix1 r) :=
  broadcastInDim_apply _ _ y (ix2 r z) (ix1 r) (fun a => by match a with | ⟨0, _⟩ => rfl)

/-- A scalar as a column. -/
theorem bcastScalarCol_apply (y : S_.Idx → α) (i : S8192x1.Idx) :
    broadcastInDim S8192x1 ![] bcast_S_S8192x1 y i = y ix0 :=
  broadcastInDim_scalar_apply _ y i

/-- A scalar as a matrix. -/
theorem bcastScalarMat_apply (y : S_.Idx → α) (i : S8192x2000.Idx) :
    broadcastInDim S8192x2000 ![] bcast_S_S8192x2000 y i = y ix0 :=
  broadcastInDim_scalar_apply _ y i

/-- A column along the rows. -/
theorem bcastRows_apply (y : S8192x1.Idx → α) (r : Fin 8192) (c : Fin 2000) :
    broadcastInDim S8192x2000 ![0, 1] bcast_S8192x1_S8192x2000_0_1 y (ix2 r c) = y (ix2 r (0 : Fin 1)) :=
  broadcastInDim_apply _ _ y (ix2 r c) (ix2 r (0 : Fin 1)) (fun a => by match a with | ⟨0, _⟩ => rfl | ⟨1, _⟩ => rfl)

/-- A bias vector on every row. -/
theorem bcastBias_apply (b : S2000.Idx → α) (r : Fin 8192) (c : Fin 2000) :
    broadcastInDim S8192x2000 ![0, 1] bcast_S1x2000_S8192x2000_0_1 (broadcastInDim S1x2000 ![1] bcast_S2000_S1x2000_1 b) (ix2 r c)
      = b (ix1 c) :=
  (broadcastInDim_apply _ _ _ (ix2 r c) (ix2 (0 : Fin 1) c) (fun a => by match a with | ⟨0, _⟩ => rfl | ⟨1, _⟩ => rfl)).trans
    (broadcastInDim_apply _ _ b (ix2 (0 : Fin 1) c) (ix1 c) (fun a => by match a with | ⟨0, _⟩ => rfl))

end Broadcasts

/-! ### The row sum -/

/-- The row sum from the zero word is the sum of the row's 2000 entries. -/
theorem rowSum_apply (x : Cert.DampedLayer.Rows 8192) (r : Fin 8192) :
    Host.reduceAdd (F := Ideal) (φ := .f32) x (constant S_ .f32 0x00000000#32) reducesTo_S8192x2000_S8192_d1 h_S_ (ix1 r)
      = ∑ j : Fin 2000, x (ix2 r j) := by
  have h : S8192x2000.Reduces [1] S8192 := by decide
  refine (Ideal.hostReduceAdd_single reducesTo_S8192x2000_S8192_d1 h x _ (ix1 r)).trans ?_
  rw [show (constant (F := Ideal) S_ .f32 0x00000000#32) (Shape.Idx.first h_S_) = 0 from Ideal.ofBits_zero_f32, zero_add]
  exact Finset.sum_congr rfl fun k _ => congrArg x (funext fun a => by match a with | ⟨0, _⟩ => rfl | ⟨1, _⟩ => rfl)

/-- The row mean. -/
theorem meanCol_apply (x : Cert.DampedLayer.Rows 8192) (r : Fin 8192) (z : Fin 1) :
    meanCol (F := Ideal) x (ix2 r z) = Cert.DampedLayer.rowMean x r := by
  unfold meanCol Cert.DampedLayer.rowMean
  refine (hostDivf_apply _ _ _).trans ?_
  rw [bcastCol_apply, bcastScalarCol_apply, rowSum_apply]
  rfl

/-- A centred entry. -/
theorem centred_apply (x : Cert.DampedLayer.Rows 8192) (r : Fin 8192) (c : Fin 2000) :
    centred (F := Ideal) x (ix2 r c) = x (ix2 r c) - Cert.DampedLayer.rowMean x r := by
  unfold centred
  refine (subf_apply _ _ _).trans ?_
  rw [bcastRows_apply, meanCol_apply]

/-- The row variance: the comparison of the divisor with zero holds, so the selection keeps the quotient. -/
theorem varCol_apply (x : Cert.DampedLayer.Rows 8192) (r : Fin 8192) (z : Fin 1) :
    varCol (F := Ideal) x (ix2 r z)
      = Ideal.div (∑ j : Fin 2000, (x (ix2 r j) - Cert.DampedLayer.rowMean x r) * (x (ix2 r j) - Cert.DampedLayer.rowMean x r))
          Cert.DampedLayer.wColsLessOne := by
  unfold varCol
  refine (select_apply _ _ _ _).trans ?_
  have hc : broadcastInDim S8192x1 ![] bcast_S_S8192x1
      (cmpf (F := Ideal) .ogt (divisor : Sca Ideal) (constant S_ .f32 0x00000000#32)) (ix2 r z) = 1#1 := by
    rw [bcastScalarCol_apply]
    show Ideal.cmp .ogt (divisor (F := Ideal) ix0) (Ideal.ofBits .f32 0x00000000#32) = 1#1
    rw [divisor_apply, Ideal.ofBits_zero_f32]
    show BitVec.ofBool (decide ((0 : EReal) < Ideal.ofBits .f32 0x44F9E000#32)) = 1#1
    have hpos : (0 : EReal) < ((1999 : ℝ) : EReal) := EReal.coe_pos.mpr (by norm_num)
    rw [word_colsLessOne, decide_eq_true hpos]
    rfl
  rw [hc, select_one]
  refine (hostDivf_apply _ _ _).trans ?_
  rw [bcastCol_apply, bcastScalarCol_apply, divisor_apply, rowSum_apply]
  refine congrArg (fun s => Ideal.div s _) (Finset.sum_congr rfl fun j _ => ?_)
  rw [mulf_apply, centred_apply]

/-- The row spread. -/
theorem stdCol_apply (x : Cert.DampedLayer.Rows 8192) (r : Fin 8192) (z : Fin 1) :
    stdCol (F := Ideal) x (ix2 r z) = Cert.DampedLayer.rowSpread x r := by
  unfold stdCol Cert.DampedLayer.rowSpread
  show Ideal.sqrt (varCol (F := Ideal) x (ix2 r z)) = _
  rw [varCol_apply]

/-- A standardized entry. -/
theorem standardizedArr_apply (x : Cert.DampedLayer.Rows 8192) (r : Fin 8192) (c : Fin 2000) :
    standardizedArr (F := Ideal) x (ix2 r c) = Cert.DampedLayer.standardized x r c := by
  unfold standardizedArr Cert.DampedLayer.standardized
  refine (hostDivf_apply _ _ _).trans ?_
  rw [centred_apply, bcastRows_apply, addf_apply, stdCol_apply, bcastScalarCol_apply]
  rfl

/-! ### The dense maps -/

/-- One dense map at (r, c): both second axes are contracted, so the sum runs over the standardized row r against
    row c of the weights. -/
theorem denseArr_apply (x : Cert.DampedLayer.Rows 8192) (W : Cert.DampedLayer.Weights) (r : Fin 8192) (c : Fin 2000) :
    denseArr (F := Ideal) x W (ix2 r c) = Cert.DampedLayer.dense x W r c := by
  unfold denseArr Cert.DampedLayer.dense
  refine (Ideal.dotGeneral_apply dot_S8192x2000_S2000x2000_S8192x2000_1_1_0_0_n_n none .single _ _ (ix2 r c)).trans ?_
  rw [← Equiv.sum_comp (contrEquiv1 dot_S8192x2000_S2000x2000_S8192x2000_1_1_0_0_n_n 2000 rfl rfl).symm]
  refine Finset.sum_congr rfl fun k _ => ?_
  have hl : dot_S8192x2000_S2000x2000_S8192x2000_1_1_0_0_n_n.lhsIdx (ix2 r c)
      ((contrEquiv1 dot_S8192x2000_S2000x2000_S8192x2000_1_1_0_0_n_n 2000 rfl rfl).symm k) = ix2 r k :=
    funext fun a => match a with
      | ⟨0, _⟩ => rfl
      | ⟨1, _⟩ => Fin.ext ((DotDims.lhsIdx_val_of_single _ rfl _ _).trans (contrEquiv1_symm_val _ 2000 rfl rfl k))
  have hr : dot_S8192x2000_S2000x2000_S8192x2000_1_1_0_0_n_n.rhsIdx (ix2 r c)
      ((contrEquiv1 dot_S8192x2000_S2000x2000_S8192x2000_1_1_0_0_n_n 2000 rfl rfl).symm k) = ix2 c k :=
    funext fun a => match a with
      | ⟨0, _⟩ => rfl
      | ⟨1, _⟩ => Fin.ext ((DotDims.rhsIdx_val_of_single _ rfl _ _).trans (contrEquiv1_symm_val _ 2000 rfl rfl k))
  rw [hl, hr, standardizedArr_apply]

/-- A bias entry. -/
theorem biasArr_apply (b : Cert.DampedLayer.Bias) (r : Fin 8192) (c : Fin 2000) :
    biasArr (F := Ideal) b (ix2 r c) = b (ix1 c) := by
  unfold biasArr
  exact bcastBias_apply b r c

/-! ### The pre-activation and the result -/

/-- The pre-activation: the program adds product, bias, product, bias, product, bias in turn; the layer's definition
    adds the three products, then the three biases.  The two sums are equal on the extended reals, where addition is
    commutative and associative. -/
theorem preArr_apply (xp xs xn : Cert.DampedLayer.Rows 8192) (Wf Wb Wl : Cert.DampedLayer.Weights)
    (bf bb bl : Cert.DampedLayer.Bias) (r : Fin 8192) (c : Fin 2000) :
    preArr (F := Ideal) xp xs xn Wf Wb Wl bf bb bl (ix2 r c) = Cert.DampedLayer.pre xp xs xn Wf Wb Wl bf bb bl r c := by
  unfold preArr Cert.DampedLayer.pre
  rw [addf_apply, addf_apply, addf_apply, addf_apply, addf_apply, denseArr_apply, denseArr_apply, denseArr_apply,
    biasArr_apply, biasArr_apply, biasArr_apply]
  ac_rfl

/-- The result at (r, c) is the layer's entry. -/
theorem outArr_apply (xp xs xn : Cert.DampedLayer.Rows 8192) (Wf Wb Wl : Cert.DampedLayer.Weights)
    (bf bb bl : Cert.DampedLayer.Bias) (r : Fin 8192) (c : Fin 2000) :
    outArr (F := Ideal) xp xs xn Wf Wb Wl bf bb bl (ix2 r c) = Cert.DampedLayer.entry xp xs xn Wf Wb Wl bf bb bl r c := by
  unfold outArr reluArr Cert.DampedLayer.entry
  rw [addf_apply, mulf_apply, mulf_apply, maximumf_apply, bcastScalarMat_apply, bcastScalarMat_apply, bcastScalarMat_apply,
    preArr_apply]
  rfl

/-- So the result array is the layer's output. -/
theorem outArr_eq_output (xp xs xn : Cert.DampedLayer.Rows 8192) (Wf Wb Wl : Cert.DampedLayer.Weights)
    (bf bb bl : Cert.DampedLayer.Bias) :
    outArr (F := Ideal) xp xs xn Wf Wb Wl bf bb bl = Cert.DampedLayer.output xp xs xn Wf Wb Wl bf bb bl := by
  funext i
  obtain ⟨r, c, rfl⟩ : ∃ (r : Fin 8192) (c : Fin 2000), i = ix2 r c := ⟨i 0, i 1, eq_ix2 i⟩
  rw [outArr_apply, Cert.DampedLayer.output_apply]

/-! ### The run, with the result named by the layer -/

/-- On the device, on the extended reals, from any memory with zero counters: every weakly fair execution of the
    reference program terminates with the result array at the damped layer's output of the nine argument arrays, and
    the arguments unchanged. -/
theorem run_output (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v52)
          = Cert.DampedLayer.output (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg5)) (m ((c.tc : Thread nD τ).loc main_arg7))
              (m ((c.tc : Thread nD τ).loc main_arg4)) (m ((c.tc : Thread nD τ).loc main_arg6)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono
    (fun _ h c => ⟨((h c).1).trans (outArr_eq_output _ _ _ _ _ _ _ _ _), (h c).2⟩)
    (run (F := Ideal) m ρ)

end Cert.ReferenceIdeal.HandRun

end
-- ==== Proof.lean ====
/-
  A recurrent feed-forward layer as one tiled kernel against its array-level reference: equal on the extended reals.

  Both programs standardize three 8192×2000 activation arrays row by row (mean over 2000, spread = root of the sum of
  squared deviations over 1999, (x − mean) / (spread + ε)), map each by a 2000×2000 weight matrix, add the three
  products and three bias vectors, cut at zero and blend with the own activation, 0.7 · max(·, 0) + 0.3 · own
  (Proof/DampedLayer.lean states this function entry by entry).

  The kernel works on 64 blocks of 128 rows; its host part transposes the weights, so that the kernel's plain matrix
  product contracts the same pairs as the reference's product against the weights' second axis, and adds the three
  biases into one row first.  Entry (p, q) of a block depends on row p of each activation block only
  (Proof/BodyEntry.lean), a block's row p is array row 128·t + p, and the 64 blocks tile the result array
  (Proof/BlockRows.lean).  The reference computes each row's variance through its own second mean, with the divisor
  2000 − 1 formed at run time and a guard that selects the variance because that divisor is positive; it adds each
  bias right after its product.  Read at an entry it is the same function: the divisor is the number 1999, the guard
  is decided, and the order of the six summands is immaterial because addition of extended reals is commutative and
  associative (Proof/ReferenceEntry.lean, over the reference's run in Proof/ReferenceRun.lean).  Changes of float
  format are the identity on exact values, and no law used here needs the inputs to be finite, so the precondition is
  never opened.

  The three frame claims are the generated frames of the two kernel programs and the reference's run with its result
  dropped; the idealization rewrote nothing, so the preservation claim is trivial.
-/
import proofs.«172869_j14731737825659_2_alg».proof.Defs
import proofs.«172869_j14731737825659_2_alg».proof.Proof.Gen.Kernel
import proofs.«172869_j14731737825659_2_alg».proof.Proof.Gen.Kernel.Frame
import proofs.«172869_j14731737825659_2_alg».proof.Proof.Gen.KernelIdeal
import proofs.«172869_j14731737825659_2_alg».proof.Proof.Gen.KernelIdeal.Frame
import proofs.«172869_j14731737825659_2_alg».proof.Proof.Gen.ReferenceIdeal
import proofs.«172869_j14731737825659_2_alg».proof.Proof.Gen.Pre_finite_inputs
import proofs.«172869_j14731737825659_2_alg».proof.Proof.BlockRows
import proofs.«172869_j14731737825659_2_alg».proof.Proof.ReferenceEntry
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as they were. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.HandRun.run_output m ρ)

/-- From memories that agree on the nine arguments both programs end with the layer's output array of those
    arguments: the kernel by its blocks, the reference by its run read at an entry. -/
theorem algebraic : Cert.algebraic_KernelIdeal_ReferenceIdeal := by
  intro m ρ m' ρ' _ hagree
  refine ⟨fun c => Cert.KernelIdeal.BlockRows.result m c, Cert.KernelIdeal.BlockRows.run m ρ, ?_⟩
  refine (θ_run Cert.ReferenceIdeal.defs _ _).mono (fun _ h c => ⟨(h c).1.trans ?_, (h c).2⟩)
    (Cert.ReferenceIdeal.HandRun.run_output m' ρ')
  obtain ⟨h0, h1, h2, h3, h4, h5, h6, h7, h8⟩ := hagree c
  rw [h0, h1, h2, h3, h4, h5, h6, h7, h8]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
